-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1x128 : Shape := ⟨2, ![1, 128]⟩
abbrev S1x64 : Shape := ⟨2, ![1, 64]⟩
abbrev S5000x128 : Shape := ⟨2, ![5000, 128]⟩
abbrev S5000x1 : Shape := ⟨2, ![5000, 1]⟩
abbrev S1700000x128 : Shape := ⟨2, ![1700000, 128]⟩
abbrev S100000x64 : Shape := ⟨2, ![100000, 64]⟩
abbrev S5000x64 : Shape := ⟨2, ![5000, 64]⟩
abbrev S1700000x64 : Shape := ⟨2, ![1700000, 64]⟩

abbrev nBuf : Space → Nat
  | .hbm => 59
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S1x128, .f32⟩
  | .hbm, ⟨29, _⟩ => ⟨S1x64, .f32⟩
  | .hbm, ⟨30, _⟩ => ⟨S100000x128, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000x128, .f32⟩
  | .hbm, ⟨40, _⟩ => ⟨S_, .f32⟩
  | .hbm, ⟨41, _⟩ => ⟨S100000x128, .f32⟩
  | .hbm, ⟨42, _⟩ => ⟨S1700000x1, .i32⟩
  | .hbm, ⟨43, _⟩ => ⟨S100000x128, .f32⟩
  | .hbm, ⟨44, _⟩ => ⟨S100000x64, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x64, .f32⟩
  | .hbm, ⟨54, _⟩ => ⟨S_, .f32⟩
  | .hbm, ⟨55, _⟩ => ⟨S100000x64, .f32⟩
  | .hbm, ⟨56, _⟩ => ⟨S1700000x1, .i32⟩
  | .hbm, ⟨57, _⟩ => ⟨S100000x64, .f32⟩
  | .hbm, ⟨58, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x1, .f32⟩
  | .local _ .vmem, ⟨18, _⟩ => ⟨S5000x1, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  shapeCasts_S128_S1x128 : S128.ShapeCasts S1x128
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v39) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 125
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x128, .f32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S100000, .i32⟩
  | .hbm, ⟨71, _⟩ => ⟨S1700000, .i32⟩
  | .hbm, ⟨72, _⟩ => ⟨S1700000, .i32⟩
  | .hbm, ⟨73, _⟩ => ⟨S_, .f32⟩
  | .hbm, ⟨74, _⟩ => ⟨S1700000, .f32⟩
  | .hbm, ⟨75, _⟩ => ⟨S_, .f32⟩
  | .hbm, ⟨76, _⟩ => ⟨S100000, .f32⟩
  | .hbm, ⟨77, _⟩ => ⟨S1700000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000, .f32⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000, .f32⟩
  | .hbm, ⟨105, _⟩ => ⟨S1700000, .f32⟩
  | .hbm, ⟨106, _⟩ => ⟨S_, .i32⟩
  | .hbm, ⟨107, _⟩ => ⟨S1700000, .i32⟩
  | .hbm, ⟨108, _⟩ => ⟨S1700000, .i1⟩
  | .hbm, ⟨109, _⟩ => ⟨S_, .i32⟩
  | .hbm, ⟨110, _⟩ => ⟨S1700000, .i32⟩
  | .hbm, ⟨111, _⟩ => ⟨S1700000, .i32⟩
  | .hbm, ⟨112, _⟩ => ⟨S1700000, .i32⟩
  | .hbm, ⟨113, _⟩ => ⟨S1700000x1, .i32⟩
  | .hbm, ⟨114, _⟩ => ⟨S1700000x64, .f32⟩
  | .hbm, ⟨115, _⟩ => ⟨S1700000x1, .f32⟩
  | .hbm, ⟨116, _⟩ => ⟨S1700000x64, .f32⟩
  | .hbm, ⟨117, _⟩ => ⟨S1700000x64, .f32⟩
  | .hbm, ⟨118, _⟩ => ⟨S_, .f32⟩
  | .hbm, ⟨119, _⟩ => ⟨S100000x64, .f32⟩
  | .hbm, ⟨120, _⟩ => ⟨S1700000x1, .i32⟩
  | .hbm, ⟨121, _⟩ => ⟨S100000x64, .f32⟩
  | .hbm, ⟨122, _⟩ => ⟨S1x64, .f32⟩
  | .hbm, ⟨123, _⟩ => ⟨S100000x64, .f32⟩
  | .hbm, ⟨124, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Spec.lean ====
/-
  A two-layer graph convolution over 100000 nodes and 1700000 directed edges (the given edges followed by one self-loop
  per node), written once as plain functions of the node features, the weights, the biases, the two edge lists (source and
  target index words) and the per-node scale `dinv` (the inverse square root of a node's in-degree, or zero).

  One layer, for a table `y` of node rows: every edge `e` carries the row of its source node to its target node, and a
  node sums what arrives.  The row read for an index word is the one jnp's indexing reads: a negative word is first
  moved up by the table's height, and the result, read signed, is clamped into the table.  An edge arrives at node `n`
  exactly when its target word, read signed, is `n`.

  Two arrangements of the same layer are stated here.  In the first (`ref…`) each carried row is scaled, edge by edge,
  by `dinv(source) · dinv(target)`; in the second (`ker…`) the table is scaled by `dinv` row by row before it is
  carried, and the summed rows are scaled by `dinv` again afterwards.  Law.lean proves that they agree.
-/
import Idealize.ShloMosaic.PureOps.Ideal
import Idealize.ShloMosaic.Lib.ValueIdx

noncomputable section

open scoped BigOperators

namespace Cert.Gcn

open Idealize.ShloMosaic Idealize.ShloMosaic.ValueIdx

/-- A table of extended reals with `a` rows and `b` columns. -/
abbrev Mat (a b : Nat) : Type := (⟨2, ![a, b]⟩ : Shape).Idx → EReal
/-- A vector of `a` extended reals. -/
abbrev Vec1 (a : Nat) : Type := (⟨1, ![a]⟩ : Shape).Idx → EReal
/-- A vector of `a` 32-bit index words. -/
abbrev Words (a : Nat) : Type := (⟨1, ![a]⟩ : Shape).Idx → BitVec 32

/-- jnp's treatment of a negative index into a table of 100000 rows: the word is moved up by 100000. -/
def wrapIdx (w : BitVec 32) : BitVec 32 :=
  Scalar.select (IntOp.cmpi .slt w 0#32) (IntOp.addi w 100000#32) w

/-- The row a gather reads for the start index word `w`: read signed and clamped into `[0, 99999]`. -/
def clampRow (w : BitVec 32) : Fin 100000 := ⟨min w.toInt.toNat (100000 - 1), by omega⟩

/-- The node row that `table[w]` reads: the wrap, then the clamp. -/
def rowOf (w : BitVec 32) : Fin 100000 := clampRow (wrapIdx w)

section Layer

variable (src dst : Words 1700000) (dinv : Vec1 100000)

/-- The plain aggregation: node `n` sums, over the edges that arrive at it, the source node's row of `y`. -/
def agg {H : Nat} (y : Fin 100000 → Fin H → EReal) (n : Fin 100000) (f : Fin H) : EReal :=
  0 + ∑ e : Fin 1700000, if (dst (ix1 e)).toInt = ((n.val : ℕ) : ℤ) then y (rowOf (src (ix1 e))) f else 0

/-- The weight of edge `e`: the scale of its source node times the scale of its target node. -/
def nrm (e : Fin 1700000) : EReal := dinv (ix1 (rowOf (src (ix1 e)))) * dinv (ix1 (rowOf (dst (ix1 e))))

/-- The weighted aggregation: each carried row is scaled by its edge's weight. -/
def aggW {H : Nat} (y : Fin 100000 → Fin H → EReal) (n : Fin 100000) (f : Fin H) : EReal :=
  0 + ∑ e : Fin 1700000, if (dst (ix1 e)).toInt = ((n.val : ℕ) : ℤ) then y (rowOf (src (ix1 e))) f * nrm src dst dinv e else 0

variable (x : Mat 100000 128) (W1 : Mat 128 128) (b1 : Vec1 128) (W2 : Mat 128 64) (b2 : Vec1 64)

/-! ### Scaled edge by edge -/

/-- The first dense layer: `x · W1`. -/
def refXW (n : Fin 100000) (j : Fin 128) : EReal := ∑ k : Fin 128, x (ix2 n k) * W1 (ix2 k j)
/-- The hidden features: the weighted aggregation of `x · W1`, plus the bias, cut below at zero. -/
def refH (n : Fin 100000) (j : Fin 128) : EReal := max (aggW src dst dinv (refXW x W1) n j + b1 (ix1 j)) 0
/-- The second dense layer: `h · W2`. -/
def refHW (n : Fin 100000) (j : Fin 64) : EReal := ∑ k : Fin 128, refH src dst dinv x W1 b1 n k * W2 (ix2 k j)
/-- The output: the weighted aggregation of `h · W2`, plus the bias. -/
def refOut (n : Fin 100000) (j : Fin 64) : EReal := aggW src dst dinv (refHW src dst dinv x W1 b1 W2) n j + b2 (ix1 j)

/-! ### Scaled row by row, before and after -/

/-- `x · W1` with row `n` scaled by `dinv n`. -/
def kerP0 (n : Fin 100000) (j : Fin 128) : EReal := (∑ k : Fin 128, x (ix2 n k) * W1 (ix2 k j)) * dinv (ix1 n)
/-- The hidden features: the plain aggregation of the scaled rows, scaled again, plus the bias, cut below at zero. -/
def kerH (n : Fin 100000) (j : Fin 128) : EReal :=
  max (agg src dst (kerP0 dinv x W1) n j * dinv (ix1 n) + b1 (ix1 j)) 0
/-- `h · W2` with row `n` scaled by `dinv n`. -/
def kerP1 (n : Fin 100000) (j : Fin 64) : EReal :=
  (∑ k : Fin 128, kerH src dst dinv x W1 b1 n k * W2 (ix2 k j)) * dinv (ix1 n)
/-- The output: the plain aggregation of the scaled rows, scaled again, plus the bias. -/
def kerOut (n : Fin 100000) (j : Fin 64) : EReal :=
  agg src dst (kerP1 src dst dinv x W1 b1 W2) n j * dinv (ix1 n) + b2 (ix1 j)

end Layer

/-! ### The three dense stages as whole-table functions

Each takes the tables a stage reads — the scale as a column `[100000, 1]`, a bias as a row `[1, c]` — and gives the table it
writes, entry by entry. -/

/-- Rows of `x · w` scaled by the column `dv`. -/
def stage0 (x : Mat 100000 128) (w : Mat 128 128) (dv : Mat 100000 1) : Mat 100000 128 := fun i =>
  (∑ k : Fin 128, x (ix2 ⟨(i 0).val, idx2_lt0 i⟩ k) * w (ix2 k ⟨(i 1).val, idx2_lt1 i⟩))
    * dv (ix2 ⟨(i 0).val, idx2_lt0 i⟩ (0 : Fin 1))

/-- `max (a · dv + b) 0`, times `w`, rows scaled by `dv`. -/
def stage1 (a : Mat 100000 128) (dv : Mat 100000 1) (b : Mat 1 128) (w : Mat 128 64) : Mat 100000 64 := fun i =>
  (∑ k : Fin 128, max (a (ix2 ⟨(i 0).val, idx2_lt0 i⟩ k) * dv (ix2 ⟨(i 0).val, idx2_lt0 i⟩ (0 : Fin 1)) + b (ix2 (0 : Fin 1) k)) 0
      * w (ix2 k ⟨(i 1).val, idx2_lt1 i⟩))
    * dv (ix2 ⟨(i 0).val, idx2_lt0 i⟩ (0 : Fin 1))

/-- `a · dv + b`. -/
def stage2 (a : Mat 100000 64) (dv : Mat 100000 1) (b : Mat 1 64) : Mat 100000 64 := fun i =>
  a i * dv (ix2 ⟨(i 0).val, idx2_lt0 i⟩ (0 : Fin 1)) + b (ix2 (0 : Fin 1) ⟨(i 1).val, idx2_lt1 i⟩)

theorem stage0_apply (x : Mat 100000 128) (w : Mat 128 128) (dv : Mat 100000 1) (n : Fin 100000) (j : Fin 128) :
    stage0 x w dv (ix2 n j) = (∑ k : Fin 128, x (ix2 n k) * w (ix2 k j)) * dv (ix2 n (0 : Fin 1)) := rfl

theorem stage1_apply (a : Mat 100000 128) (dv : Mat 100000 1) (b : Mat 1 128) (w : Mat 128 64) (n : Fin 100000) (j : Fin 64) :
    stage1 a dv b w (ix2 n j)
      = (∑ k : Fin 128, max (a (ix2 n k) * dv (ix2 n (0 : Fin 1)) + b (ix2 (0 : Fin 1) k)) 0 * w (ix2 k j)) * dv (ix2 n (0 : Fin 1)) := rfl

theorem stage2_apply (a : Mat 100000 64) (dv : Mat 100000 1) (b : Mat 1 64) (n : Fin 100000) (j : Fin 64) :
    stage2 a dv b (ix2 n j) = a (ix2 n j) * dv (ix2 n (0 : Fin 1)) + b (ix2 (0 : Fin 1) j) := rfl

end Cert.Gcn

end
-- ==== Proof.LibSegmentSum.lean ====
/-
  The host's accumulating scatter of rows — jax's `segment_sum` of a table of rows — read at an entry.

  Updates `upd : [E, H]` are added into an operand `x : [V, H]`, row `e` of the updates onto the row of
  the operand that `idx[e, 0]` names (read signed; a row outside the operand is dropped).  Over the
  extended reals the accumulation is the exact sum, so entry `(v, k)` of the result is `x (v, k)` plus
  the sum of `upd (e, k)` over the update rows `e` whose index is `v`.
-/
import Idealize.ShloMosaic.PureOps.Ideal
import Idealize.ShloMosaic.Lib.ValueIdx

open Idealize.ShloMosaic Idealize.ShloMosaic.ValueIdx

namespace Cert.Proof.LibSegmentSum

/-- The dimension numbers of a row scatter: the update's second axis is the window, the operand's first
    axis is the one the single index component names. -/
abbrev rowDims (V E H : Nat) (wf : ScatterDims.WF ⟨2, ![V, H]⟩ ⟨2, ![E, 1]⟩ ⟨2, ![E, H]⟩ [1] [0] [0] 1) :
    ScatterDims ⟨2, ![V, H]⟩ ⟨2, ![E, 1]⟩ ⟨2, ![E, H]⟩ where
  updateWindowDims := [1]
  insertedWindowDims := [0]
  scatterDimsToOperandDims := [0]
  indexVectorDim := 1
  wf := wf

/-- Where update row `e` reads its index. -/
abbrev segIdx {E : Nat} (e : Fin E) : (⟨2, ![E, 1]⟩ : Shape).Idx := ix2 e ⟨0, Nat.one_pos⟩

variable {V E H w : Nat} (wf : ScatterDims.WF ⟨2, ![V, H]⟩ ⟨2, ![E, 1]⟩ ⟨2, ![E, H]⟩ [1] [0] [0] 1)

theorem start_row (j : (⟨2, ![E, H]⟩ : Shape).Idx) (idx : IVec ⟨2, ![E, 1]⟩ w) :
    (rowDims V E H wf).start j idx 0 = (idx (segIdx (j 0))).toInt := by
  unfold ScatterDims.start
  rw [dif_pos (show (0 : Fin 2) ∈ (rowDims V E H wf).scatterDimsToOperandDims from List.mem_singleton.mpr rfl)]
  have hsi : (rowDims V E H wf).siIdx j ⟨List.idxOf (0 : Fin 2) (rowDims V E H wf).scatterDimsToOperandDims,
      List.idxOf_lt_length_iff.2 (List.mem_singleton.mpr rfl)⟩ = segIdx (j 0) := by
    funext b; refine Fin.ext ?_
    match b with
    | ⟨0, _⟩ => rfl
    | ⟨1, _⟩ => rfl
  rw [hsi]
  rfl

/-- The operand's axes that carry a window coordinate: only the second. -/
theorem sKept_eq : (rowDims V E H wf).sKept = [1] := by
  show (List.finRange 2).filter (fun a : Fin 2 => a ∉ ([0] : List (Fin 2))) = [1]
  decide

theorem start_col (j : (⟨2, ![E, H]⟩ : Shape).Idx) (idx : IVec ⟨2, ![E, 1]⟩ w) :
    (rowDims V E H wf).start j idx 1 = 0 := by
  unfold ScatterDims.start
  rw [dif_neg (show ¬ (1 : Fin 2) ∈ ([0] : List (Fin 2)) by decide)]

theorem window_row (j : (⟨2, ![E, H]⟩ : Shape).Idx) : (rowDims V E H wf).window j 0 = 0 := by
  unfold ScatterDims.window
  rw [dif_neg (show ¬ (0 : Fin 2) ∈ (rowDims V E H wf).sKept by
    rw [sKept_eq]; exact (show ¬ (0 : Fin 2) ∈ ([1] : List (Fin 2)) by decide))]

theorem window_col (j : (⟨2, ![E, H]⟩ : Shape).Idx) : (rowDims V E H wf).window j 1 = (j 1).val := by
  unfold ScatterDims.window
  rw [dif_pos (show (1 : Fin 2) ∈ (rowDims V E H wf).sKept by
    rw [sKept_eq]; exact (show (1 : Fin 2) ∈ ([1] : List (Fin 2)) by decide))]
  rfl

/-- The update entry `j` stays inside the operand exactly when its row's index, read signed, names a row. -/
theorem inside_iff (j : (⟨2, ![E, H]⟩ : Shape).Idx) (idx : IVec ⟨2, ![E, 1]⟩ w) :
    (∀ a, 0 ≤ (rowDims V E H wf).start j idx a + (rowDims V E H wf).window j a ∧
        (rowDims V E H wf).start j idx a + (rowDims V E H wf).window j a < (⟨2, ![V, H]⟩ : Shape).size a)
      ↔ (0 ≤ (idx (segIdx (j 0))).toInt ∧ (idx (segIdx (j 0))).toInt < V) := by
  rw [Fin.forall_fin_two, start_row, start_col, window_row, window_col]
  have := idx2_lt1 j
  show (0 ≤ _ + ((0 : ℕ) : ℤ) ∧ _ + ((0 : ℕ) : ℤ) < ((V : ℕ) : ℤ))
    ∧ (0 ≤ (0 : ℤ) + (((j 1).val : ℕ) : ℤ) ∧ (0 : ℤ) + (((j 1).val : ℕ) : ℤ) < ((H : ℕ) : ℤ)) ↔ _
  omega

/-- The update entry `j` lands on the operand entry `i` exactly when its row's index is `i`'s row and
    the two share the column. -/
theorem resultIdx?_eq_some_iff (j : (⟨2, ![E, H]⟩ : Shape).Idx) (idx : IVec ⟨2, ![E, 1]⟩ w)
    (i : (⟨2, ![V, H]⟩ : Shape).Idx) :
    (rowDims V E H wf).resultIdx? j idx = some i
      ↔ (idx (segIdx (j 0))).toInt = ((i 0).val : ℤ) ∧ (j 1).val = (i 1).val := by
  unfold ScatterDims.resultIdx?
  have hi0 := idx2_lt0 i
  by_cases hc : ∀ a, 0 ≤ (rowDims V E H wf).start j idx a + (rowDims V E H wf).window j a ∧
      (rowDims V E H wf).start j idx a + (rowDims V E H wf).window j a < (⟨2, ![V, H]⟩ : Shape).size a
  · rw [dif_pos hc]
    have hc' := (inside_iff wf j idx).mp hc
    constructor
    · intro h
      have hi := Option.some.inj h
      have h0 : ((rowDims V E H wf).start j idx 0 + (rowDims V E H wf).window j 0).toNat = (i 0).val :=
        congrArg (fun f => (f 0).val) hi
      have h1 : ((rowDims V E H wf).start j idx 1 + (rowDims V E H wf).window j 1).toNat = (i 1).val :=
        congrArg (fun f => (f 1).val) hi
      rw [start_row, window_row] at h0
      rw [start_col, window_col] at h1
      constructor <;> omega
    · rintro ⟨h0, h1⟩
      congr 1
      funext a
      refine Fin.ext ?_
      revert a
      rw [Fin.forall_fin_two]
      constructor
      · show ((rowDims V E H wf).start j idx 0 + (rowDims V E H wf).window j 0).toNat = (i 0).val
        rw [start_row, window_row]; omega
      · show ((rowDims V E H wf).start j idx 1 + (rowDims V E H wf).window j 1).toNat = (i 1).val
        rw [start_col, window_col]; omega
  · rw [dif_neg hc]
    constructor
    · intro h; exact absurd h (by simp)
    · rintro ⟨h0, _⟩
      exact absurd ((inside_iff wf j idx).mpr ⟨by omega, by omega⟩) hc

/-- An operand entry's column, as a column of the updates. -/
abbrev colOf (i : (⟨2, ![V, H]⟩ : Shape).Idx) : Fin H := ⟨(i 1).val, idx2_lt1 i⟩

/-- THE ROW SCATTER-ADD READ AT AN ENTRY: the operand's entry plus the entries, in the same column, of
    the update rows whose index names the entry's row. -/
theorem scatterAdd_rows_apply (x : (⟨2, ![V, H]⟩ : Shape).Idx → EReal) (idx : IVec ⟨2, ![E, 1]⟩ w)
    (upd : (⟨2, ![E, H]⟩ : Shape).Idx → EReal) (i : (⟨2, ![V, H]⟩ : Shape).Idx) :
    Ideal.hostScatterAdd (rowDims V E H wf) x idx upd i
      = x i + ∑ e : Fin E, if (idx (segIdx e)).toInt = ((i 0).val : ℤ) then upd (ix2 e (colOf i)) else 0 := by
  unfold Ideal.hostScatterAdd
  congr 1
  rw [Finset.sum_filter, sum_idx2]
  refine Finset.sum_congr rfl fun e _ => ?_
  by_cases hA : (idx (segIdx e)).toInt = ((i 0).val : ℤ)
  · rw [if_pos hA]
    refine (Finset.sum_eq_single (colOf i) ?_ ?_).trans ?_
    · intro k _ hk
      exact if_neg fun h => hk (Fin.ext ((resultIdx?_eq_some_iff wf (ix2 e k) idx i).mp h).2)
    · intro h; exact absurd (Finset.mem_univ _) h
    · exact if_pos ((resultIdx?_eq_some_iff wf (ix2 e (colOf i)) idx i).mpr ⟨hA, rfl⟩)
  · rw [if_neg hA]
    exact Finset.sum_eq_zero fun k _ => if_neg fun h => hA ((resultIdx?_eq_some_iff wf (ix2 e k) idx i).mp h).1

/-! ## The same for a table of scalars (`segment_sum` of a vector: a count when the updates are ones) -/

section Scalars

/-- A rank-1 index is its one coordinate. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scalar scatter: no window axis, the operand's one axis named by the index. -/
abbrev scalarDims (V E : Nat) (wf : ScatterDims.WF ⟨1, ![V]⟩ ⟨2, ![E, 1]⟩ ⟨1, ![E]⟩ [] [0] [0] 1) :
    ScatterDims ⟨1, ![V]⟩ ⟨2, ![E, 1]⟩ ⟨1, ![E]⟩ where
  updateWindowDims := []
  insertedWindowDims := [0]
  scatterDimsToOperandDims := [0]
  indexVectorDim := 1
  wf := wf

variable {V E w : Nat} (wf : ScatterDims.WF ⟨1, ![V]⟩ ⟨2, ![E, 1]⟩ ⟨1, ![E]⟩ [] [0] [0] 1)

theorem start_scalar (j : (⟨1, ![E]⟩ : Shape).Idx) (idx : IVec ⟨2, ![E, 1]⟩ w) :
    (scalarDims V E wf).start j idx 0 = (idx (segIdx (j 0))).toInt := by
  unfold ScatterDims.start
  rw [dif_pos (show (0 : Fin 1) ∈ (scalarDims V E wf).scatterDimsToOperandDims from List.mem_singleton.mpr rfl)]
  have hsi : (scalarDims V E wf).siIdx j ⟨List.idxOf (0 : Fin 1) (scalarDims V E wf).scatterDimsToOperandDims,
      List.idxOf_lt_length_iff.2 (List.mem_singleton.mpr rfl)⟩ = segIdx (j 0) := by
    funext b; refine Fin.ext ?_
    match b with
    | ⟨0, _⟩ => rfl
    | ⟨1, _⟩ => rfl
  rw [hsi]
  rfl

theorem sKept_scalar : (scalarDims V E wf).sKept = [] := by
  show (List.finRange 1).filter (fun a : Fin 1 => a ∉ ([0] : List (Fin 1))) = []
  decide

theorem window_scalar (j : (⟨1, ![E]⟩ : Shape).Idx) : (scalarDims V E wf).window j 0 = 0 := by
  unfold ScatterDims.window
  rw [dif_neg (show ¬ (0 : Fin 1) ∈ (scalarDims V E wf).sKept by rw [sKept_scalar]; exact List.not_mem_nil)]

theorem resultIdx?_scalar_iff (j : (⟨1, ![E]⟩ : Shape).Idx) (idx : IVec ⟨2, ![E, 1]⟩ w) (i : (⟨1, ![V]⟩ : Shape).Idx) :
    (scalarDims V E wf).resultIdx? j idx = some i ↔ (idx (segIdx (j 0))).toInt = ((i 0).val : ℤ) := by
  unfold ScatterDims.resultIdx?
  have hi0 : (i 0).val < V := (i 0).isLt
  have hin : (∀ a, 0 ≤ (scalarDims V E wf).start j idx a + (scalarDims V E wf).window j a ∧
        (scalarDims V E wf).start j idx a + (scalarDims V E wf).window j a < (⟨1, ![V]⟩ : Shape).size a)
      ↔ (0 ≤ (idx (segIdx (j 0))).toInt ∧ (idx (segIdx (j 0))).toInt < V) := by
    rw [Fin.forall_fin_one, start_scalar, window_scalar]
    show (0 ≤ _ + ((0 : ℕ) : ℤ) ∧ _ + ((0 : ℕ) : ℤ) < ((V : ℕ) : ℤ)) ↔ _
    omega
  by_cases hc : ∀ a, 0 ≤ (scalarDims V E wf).start j idx a + (scalarDims V E wf).window j a ∧
      (scalarDims V E wf).start j idx a + (scalarDims V E wf).window j a < (⟨1, ![V]⟩ : Shape).size a
  · rw [dif_pos hc]
    have hc' := hin.mp hc
    constructor
    · intro h
      have h0 : ((scalarDims V E wf).start j idx 0 + (scalarDims V E wf).window j 0).toNat = (i 0).val :=
        congrArg (fun f => (f 0).val) (Option.some.inj h)
      rw [start_scalar, window_scalar] at h0
      omega
    · intro h0
      congr 1
      funext a
      refine Fin.ext ?_
      revert a
      rw [Fin.forall_fin_one]
      show ((scalarDims V E wf).start j idx 0 + (scalarDims V E wf).window j 0).toNat = (i 0).val
      rw [start_scalar, window_scalar]; omega
  · rw [dif_neg hc]
    constructor
    · intro h; exact absurd h (by simp)
    · intro h0
      exact absurd (hin.mpr ⟨by omega, by omega⟩) hc

/-- THE SCALAR SCATTER-ADD READ AT AN ENTRY: the operand's entry plus the updates whose index names it. -/
theorem scatterAdd_scalars_apply (x : (⟨1, ![V]⟩ : Shape).Idx → EReal) (idx : IVec ⟨2, ![E, 1]⟩ w)
    (upd : (⟨1, ![E]⟩ : Shape).Idx → EReal) (i : (⟨1, ![V]⟩ : Shape).Idx) :
    Ideal.hostScatterAdd (scalarDims V E wf) x idx upd i
      = x i + ∑ e : Fin E, if (idx (segIdx e)).toInt = ((i 0).val : ℤ) then upd (ix1 e) else 0 := by
  unfold Ideal.hostScatterAdd
  congr 1
  rw [Finset.sum_filter, sum_idx1]
  refine Finset.sum_congr rfl fun e _ => ?_
  by_cases hA : (idx (segIdx e)).toInt = ((i 0).val : ℤ)
  · rw [if_pos hA]; exact if_pos ((resultIdx?_scalar_iff wf (ix1 e) idx i).mpr hA)
  · rw [if_neg hA]; exact if_neg fun h => hA ((resultIdx?_scalar_iff wf (ix1 e) idx i).mp h)

end Scalars

end Cert.Proof.LibSegmentSum
-- ==== Proof.LibGatherRows.lean ====
/-
  A host gather of whole rows — `x[idx]` for a table `x : [N, H]` and integer indices — read at an entry.

  The indices arrive as `[E, 1]`; result row `e` is the table's row named by `idx[e, 0]`, read as a signed
  integer and clamped into `[0, N - 1]` as every gather start index is; the column is kept.
-/
import Idealize.ShloMosaic.PureOps.ShapeOps
import Idealize.ShloMosaic.Lib.ValueIdx

open Idealize.ShloMosaic Idealize.ShloMosaic.ValueIdx

namespace Cert.Proof.LibGatherRows

variable {α : Type}

/-- The dimension numbers of a row gather: the result's second axis is the row's offset axis, the
    table's first axis is collapsed and is the one the single index component names. -/
abbrev rowDims (N E H : Nat) (wf : GatherDims.WF ⟨2, ![N, H]⟩ ⟨2, ![E, 1]⟩ ⟨2, ![E, H]⟩ [1] [0] [] [0] [] 1 ![1, H]) :
    GatherDims ⟨2, ![N, H]⟩ ⟨2, ![E, 1]⟩ ⟨2, ![E, H]⟩ where
  offsetDims := [1]
  collapsedSliceDims := [0]
  operandBatchingDims := []
  startIndicesBatchingDims := []
  startIndexMap := [0]
  indexVectorDim := 1
  sliceSizes := ![1, H]
  wf := wf

/-- Where result row `e` reads its index. -/
abbrev rowIdx {E : Nat} (e : Fin E) : (⟨2, ![E, 1]⟩ : Shape).Idx := ix2 e ⟨0, Nat.one_pos⟩

/-- THE ROW GATHER READ AT `(e, k)`: the table at the clamped index of row `e`, column `k`. -/
theorem gather_rows_apply {N E H w : Nat} (hN : 0 < N)
    (wf : GatherDims.WF ⟨2, ![N, H]⟩ ⟨2, ![E, 1]⟩ ⟨2, ![E, H]⟩ [1] [0] [] [0] [] 1 ![1, H])
    (x : (⟨2, ![N, H]⟩ : Shape).Idx → α) (idx : IVec ⟨2, ![E, 1]⟩ w) (y : (⟨2, ![E, H]⟩ : Shape).Idx) :
    Host.gather (rowDims N E H wf) x idx y
      = x (ix2 ⟨min (idx (rowIdx ⟨(y 0).val, idx2_lt0 y⟩)).toInt.toNat (N - 1), by omega⟩ ⟨(y 1).val, idx2_lt1 y⟩) := by
  unfold Host.gather
  congr 1
  funext a
  refine Fin.ext ?_
  revert a
  rw [Fin.forall_fin_two]
  constructor
  · show (rowDims N E H wf).start y idx 0 + (rowDims N E H wf).batchCoord y 0 + (rowDims N E H wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E H wf).startIndexMap from List.mem_singleton.mpr rfl)]
    have hsi : (rowDims N E H wf).siIdx y ⟨List.idxOf (0 : Fin 2) (rowDims N E H wf).startIndexMap,
        List.idxOf_lt_length_iff.2 (List.mem_singleton.mpr rfl)⟩ = rowIdx ⟨(y 0).val, idx2_lt0 y⟩ := by
      funext b; refine Fin.ext ?_
      match b with
      | ⟨0, _⟩ => rfl
      | ⟨1, _⟩ => rfl
    rw [hsi]
    rfl
  · show (rowDims N E H wf).start y idx 1 + (rowDims N E H wf).batchCoord y 1 + (rowDims N E H wf).offCoord y 1 = _
    rw [GatherDims.batchCoord_eq_zero _ _ _ List.not_mem_nil]
    have hs : (rowDims N E H wf).start y idx 1 = 0 := by
      unfold GatherDims.start
      rw [dif_neg (show ¬ (1 : Fin 2) ∈ ([0] : List (Fin 2)) by decide)]
    rw [hs]
    simp only [Nat.zero_add, Nat.add_zero]
    unfold GatherDims.offCoord
    rw [dif_pos ((GatherDims.mem_sKept _ _).mpr
      ⟨(show ¬ (1 : Fin 2) ∈ ([0] : List (Fin 2)) by decide), List.not_mem_nil⟩)]
    rfl

end Cert.Proof.LibGatherRows
-- ==== Proof.LibAggregate.lean ====
/-
  Message passing on the host, read at an entry: rows of a table `y : [N, H]` gathered at a vector of source indices
  and scatter-added into a table of zeros at a vector of target indices (jax's `segment_sum(y[src], dst)`), with both
  index vectors laid out as `[E, 1]` columns the way the lowering does.

  Entry `(n, f)` of the result is the sum, over the edges `e` whose target index is `n`, of `y` at the row the gather
  reads for `e` — the source index read signed and clamped into `[0, N - 1]` — and column `f`.  Also: a vector laid
  out as an `[E, 1]` column, read at `(e, 0)`.
-/
import Idealize.ShloMosaic.PureOps.Ideal
import Idealize.ShloMosaic.Lib.ValueIdx
import Idealize.ShloMosaic.Lib.Pipeline.Value
import proofs.«111790_j60129542735_2_alg».proof.Proof.LibSegmentSum
import proofs.«111790_j60129542735_2_alg».proof.Proof.LibGatherRows

noncomputable section

open scoped BigOperators

namespace Cert.Proof.LibAggregate

open Idealize.ShloMosaic Idealize.ShloMosaic.ValueIdx

/-- A vector `[E]` laid out as a column `[E, 1]`, read at `(e, 0)`, is the vector at `e`. -/
theorem column_apply {α : Type} {E : Nat} (h : (⟨1, ![E]⟩ : Shape).BroadcastsInDim ⟨2, ![E, 1]⟩ (![0] : Fin 1 → Fin 2))
    (v : (⟨1, ![E]⟩ : Shape).Idx → α) (e : Fin E) :
    broadcastInDim (⟨2, ![E, 1]⟩ : Shape) (![0] : Fin 1 → Fin 2) h v (ix2 e ⟨0, Nat.one_pos⟩) = v (ix1 e) :=
  broadcastInDim_apply (![0] : Fin 1 → Fin 2) h v (ix2 e ⟨0, Nat.one_pos⟩) (ix1 e) (fun a => by
    match a with
    | ⟨0, _⟩ =>
      show e.val = if E = 1 then 0 else e.val
      split
      · have := e.isLt; omega
      · rfl)

/-- GATHER ROWS, THEN SCATTER-ADD THEM INTO ZEROS, at entry `(n, f)`. -/
theorem gather_scatter_apply {N E H : Nat} (hN : 0 < N)
    (swf : ScatterDims.WF ⟨2, ![N, H]⟩ ⟨2, ![E, 1]⟩ ⟨2, ![E, H]⟩ [1] [0] [0] 1)
    (gwf : GatherDims.WF ⟨2, ![N, H]⟩ ⟨2, ![E, 1]⟩ ⟨2, ![E, H]⟩ [1] [0] [] [0] [] 1 ![1, H])
    (hb : (⟨1, ![E]⟩ : Shape).BroadcastsInDim ⟨2, ![E, 1]⟩ (![0] : Fin 1 → Fin 2))
    (zeros : (⟨2, ![N, H]⟩ : Shape).Idx → EReal) (hz : ∀ i, zeros i = 0)
    (y : (⟨2, ![N, H]⟩ : Shape).Idx → EReal) (srcv dstv : (⟨1, ![E]⟩ : Shape).Idx → BitVec 32) (n : Fin N) (f : Fin H) :
    Ideal.hostScatterAdd (LibSegmentSum.rowDims N E H swf) zeros
        (broadcastInDim (⟨2, ![E, 1]⟩ : Shape) (![0] : Fin 1 → Fin 2) hb dstv)
        (Host.gather (LibGatherRows.rowDims N E H gwf) y (broadcastInDim (⟨2, ![E, 1]⟩ : Shape) (![0] : Fin 1 → Fin 2) hb srcv))
        (ix2 n f)
      = 0 + ∑ e : Fin E, if (dstv (ix1 e)).toInt = ((n.val : ℕ) : ℤ)
          then y (ix2 ⟨min (srcv (ix1 e)).toInt.toNat (N - 1), by omega⟩ f) else 0 := by
  refine (LibSegmentSum.scatterAdd_rows_apply swf zeros _ _ (ix2 n f)).trans ?_
  rw [hz]
  refine congrArg (0 + ·) (Finset.sum_congr rfl fun e _ => ?_)
  have hd : broadcastInDim (⟨2, ![E, 1]⟩ : Shape) (![0] : Fin 1 → Fin 2) hb dstv (LibSegmentSum.segIdx e) = dstv (ix1 e) :=
    column_apply hb dstv e
  have hs : broadcastInDim (⟨2, ![E, 1]⟩ : Shape) (![0] : Fin 1 → Fin 2) hb srcv (LibGatherRows.rowIdx e) = srcv (ix1 e) :=
    column_apply hb srcv e
  have hg := LibGatherRows.gather_rows_apply hN gwf y
    (broadcastInDim (⟨2, ![E, 1]⟩ : Shape) (![0] : Fin 1 → Fin 2) hb srcv) (ix2 e f)
  rw [hd]
  refine if_congr Iff.rfl ?_ rfl
  refine hg.trans ?_
  refine congrArg y (congrArg₂ ix2 (Fin.ext ?_) rfl)
  show min (broadcastInDim (⟨2, ![E, 1]⟩ : Shape) (![0] : Fin 1 → Fin 2) hb srcv (LibGatherRows.rowIdx e)).toInt.toNat (N - 1) = _
  rw [hs]

end Cert.Proof.LibAggregate

end
-- ==== Proof.LibGatherScalars.lean ====
/-
  A host gather of single entries — `x[idx]` for a vector `x : [N]` and integer indices — read at an entry.

  The indices arrive as a column `[E, 1]`; result entry `e` is the vector's entry named by `idx[e, 0]`, read as a
  signed integer and clamped into `[0, N - 1]` as every gather start index is.
-/
import Idealize.ShloMosaic.PureOps.ShapeOps
import Idealize.ShloMosaic.Lib.ValueIdx

open Idealize.ShloMosaic Idealize.ShloMosaic.ValueIdx

namespace Cert.Proof.LibGatherScalars

variable {α : Type}

/-- The dimension numbers of an entry gather: no offset axis, the vector's one axis is collapsed and is the one
    the single index component names. -/
abbrev scalarDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Where result entry `e` reads its index. -/
abbrev entryIdx {E : Nat} (e : Fin E) : (⟨2, ![E, 1]⟩ : Shape).Idx := ix2 e ⟨0, Nat.one_pos⟩

/-- THE ENTRY GATHER READ AT `e`: the vector at the clamped index of entry `e`. -/
theorem gather_scalars_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (scalarDims N E wf) x idx y
      = x (ix1 ⟨min (idx (entryIdx (y 0))).toInt.toNat (N - 1), by omega⟩) := by
  unfold Host.gather
  congr 1
  funext a
  obtain rfl : a = 0 := Subsingleton.elim _ _
  refine Fin.ext ?_
  show (scalarDims N E wf).start y idx 0 + (scalarDims N E wf).batchCoord y 0 + (scalarDims N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (scalarDims N E wf).startIndexMap from List.mem_singleton.mpr rfl)]
  have hsi : (scalarDims N E wf).siIdx y ⟨List.idxOf (0 : Fin 1) (scalarDims N E wf).startIndexMap,
      List.idxOf_lt_length_iff.2 (List.mem_singleton.mpr rfl)⟩ = entryIdx (y 0) := by
    funext b; refine Fin.ext ?_
    match b with
    | ⟨0, _⟩ => rfl
    | ⟨1, _⟩ => rfl
  rw [hsi]
  rfl

end Cert.Proof.LibGatherScalars
-- ==== Proof.RefValue.lean ====
/-
  The reference program read at an entry, over the extended reals.

  The program computes, twice over, the same three things from the edge array: the list of source index words and
  the list of target index words (the given edges followed by one self-loop per node), and the per-node scale.  They
  stay opaque here: only the way the layers USE them is read.  With them named `src`, `dst` and `dinv`, entry
  `(n, j)` of the result is Spec.lean's `refOut src dst dinv x W1 b1 W2 b2 n j`:

    * an index vector passed through jnp's negative-index wrap and laid out as a column, then used as the start
      indices of a gather, reads the row `rowOf` of the unwrapped word;
    * so an edge's weight is `nrm`, its update row is the source node's row times that weight, and the scatter-add
      of the update rows into zeros at the target column is `aggW`;
    * the dense parts are the sums over the 128 contracted positions, the bias rows, and the cut at zero.
-/
import proofs.«111790_j60129542735_2_alg».proof.Proof.RefRead
import proofs.«111790_j60129542735_2_alg».proof.Proof.Spec
import proofs.«111790_j60129542735_2_alg».proof.Proof.LibAggregate
import proofs.«111790_j60129542735_2_alg».proof.Proof.LibGatherScalars

noncomputable section

open scoped BigOperators

namespace Cert.ReferenceIdeal.RefValue

open Cert.ReferenceIdeal Cert.ReferenceIdeal.ReadP Idealize.ShloMosaic Idealize.ShloMosaic.ValueIdx
open Cert.Proof Cert.Gcn

/-! ## One layer's host operations, for any row width -/

section Generic

variable (hb : (⟨1, ![1700000]⟩ : Shape).BroadcastsInDim ⟨2, ![1700000, 1]⟩ (![0] : Fin 1 → Fin 2))

/-- The scale gathered at a wrapped index column: entry `e` is the scale of the node the word names. -/
theorem gather_scale_apply
    (gwf : GatherDims.WF ⟨1, ![100000]⟩ ⟨2, ![1700000, 1]⟩ ⟨1, ![1700000]⟩ [] [0] [] [0] [] 1 ![1])
    (dinv : Vec1 100000) (s wr : Words 1700000)
    (hw : ∀ e : Fin 1700000, wr (ix1 e) = wrapIdx (s (ix1 e))) (e : Fin 1700000) :
    Host.gather (LibGatherScalars.scalarDims 100000 1700000 gwf) dinv
        (broadcastInDim (⟨2, ![1700000, 1]⟩ : Shape) (![0] : Fin 1 → Fin 2) hb wr) (ix1 e)
      = dinv (ix1 (rowOf (s (ix1 e)))) := by
  refine (LibGatherScalars.gather_scalars_apply (by omega) gwf dinv _ (ix1 e)).trans ?_
  refine congrArg dinv (congrArg ix1 (Fin.ext ?_))
  show min (broadcastInDim (⟨2, ![1700000, 1]⟩ : Shape) (![0] : Fin 1 → Fin 2) hb wr
      (LibGatherScalars.entryIdx e)).toInt.toNat (100000 - 1) = _
  rw [LibAggregate.column_apply hb wr e, hw]
  rfl

/-- Rows of a table gathered at a wrapped index column: entry `(e, k)` is the named node's row at column `k`. -/
theorem gather_table_apply {H : Nat}
    (gwf : GatherDims.WF ⟨2, ![100000, H]⟩ ⟨2, ![1700000, 1]⟩ ⟨2, ![1700000, H]⟩ [1] [0] [] [0] [] 1 ![1, H])
    (table : Mat 100000 H) (s wr : Words 1700000)
    (hw : ∀ e : Fin 1700000, wr (ix1 e) = wrapIdx (s (ix1 e))) (e : Fin 1700000) (k : Fin H) :
    Host.gather (LibGatherRows.rowDims 100000 1700000 H gwf) table
        (broadcastInDim (⟨2, ![1700000, 1]⟩ : Shape) (![0] : Fin 1 → Fin 2) hb wr) (ix2 e k)
      = table (ix2 (rowOf (s (ix1 e))) k) := by
  refine (LibGatherRows.gather_rows_apply (by omega) gwf table _ (ix2 e k)).trans ?_
  refine congrArg table (congrArg₂ ix2 (Fin.ext ?_) rfl)
  show min (broadcastInDim (⟨2, ![1700000, 1]⟩ : Shape) (![0] : Fin 1 → Fin 2) hb wr
      (LibGatherRows.rowIdx e)).toInt.toNat (100000 - 1) = _
  rw [LibAggregate.column_apply hb wr e, hw]
  rfl

/-- Update rows `y(source row) · weight` scatter-added into zeros at the target words: the weighted aggregation. -/
theorem scatter_weighted_apply {H : Nat}
    (swf : ScatterDims.WF ⟨2, ![100000, H]⟩ ⟨2, ![1700000, 1]⟩ ⟨2, ![1700000, H]⟩ [1] [0] [0] 1)
    (zeros : (⟨2, ![100000, H]⟩ : Shape).Idx → EReal) (hz : ∀ i, zeros i = 0)
    (src dst : Words 1700000) (dinv : Vec1 100000) (y : Fin 100000 → Fin H → EReal)
    (idx : IVec ⟨2, ![1700000, 1]⟩ 32) (hidx : ∀ e : Fin 1700000, idx (LibSegmentSum.segIdx e) = dst (ix1 e))
    (upd : (⟨2, ![1700000, H]⟩ : Shape).Idx → EReal)
    (hupd : ∀ (e : Fin 1700000) (k : Fin H), upd (ix2 e k) = y (rowOf (src (ix1 e))) k * nrm src dst dinv e)
    (n : Fin 100000) (f : Fin H) :
    Ideal.hostScatterAdd (LibSegmentSum.rowDims 100000 1700000 H swf) zeros idx upd (ix2 n f)
      = aggW src dst dinv y n f := by
  refine (LibSegmentSum.scatterAdd_rows_apply swf zeros idx upd (ix2 n f)).trans ?_
  rw [hz]
  unfold aggW
  refine congrArg (0 + ·) (Finset.sum_congr rfl fun e _ => ?_)
  rw [hidx, hupd]
  rfl

end Generic

/-! ## The reference's operations -/

section Layers

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))

/-! ### The second layer recomputes the first layer's edge lists and scale -/

theorem v50_eq : val_main_v50 (F := Ideal) x1 = val_main_v6 (F := Ideal) x1 := rfl
theorem v51_eq : val_main_v51 (F := Ideal) x1 = val_main_v7 (F := Ideal) x1 := rfl
theorem v59_eq : val_main_v59 (F := Ideal) x1 = val_main_v15 (F := Ideal) x1 := rfl

/-! ### The wrapped index vectors -/

theorem wrap20 (e : Fin 1700000) :
    val_main_v20 (F := Ideal) x1 (ix1 e) = wrapIdx (val_main_v6 (F := Ideal) x1 (ix1 e)) := by
  rw [val_main_v20_apply, val_main_v17_apply, val_main_v19_apply, val_main_v16_apply, val_main_v18_apply,
    val_main_c_apply, val_main_c_3_apply]
  rfl

theorem wrap27 (e : Fin 1700000) :
    val_main_v27 (F := Ideal) x1 (ix1 e) = wrapIdx (val_main_v7 (F := Ideal) x1 (ix1 e)) := by
  rw [val_main_v27_apply, val_main_v24_apply, val_main_v26_apply, val_main_v23_apply, val_main_v25_apply,
    val_main_c_4_apply, val_main_c_5_apply]
  rfl

theorem wrap35 (e : Fin 1700000) :
    val_main_v35 (F := Ideal) x1 (ix1 e) = wrapIdx (val_main_v6 (F := Ideal) x1 (ix1 e)) := by
  rw [val_main_v35_apply, val_main_v32_apply, val_main_v34_apply, val_main_v31_apply, val_main_v33_apply,
    val_main_c_6_apply, val_main_c_7_apply]
  rfl

theorem wrap64 (e : Fin 1700000) :
    val_main_v64 (F := Ideal) x1 (ix1 e) = wrapIdx (val_main_v6 (F := Ideal) x1 (ix1 e)) := by
  rw [val_main_v64_apply, val_main_v61_apply, val_main_v63_apply, val_main_v60_apply, val_main_v62_apply,
    val_main_c_13_apply, val_main_c_14_apply, v50_eq]
  rfl

theorem wrap71 (e : Fin 1700000) :
    val_main_v71 (F := Ideal) x1 (ix1 e) = wrapIdx (val_main_v7 (F := Ideal) x1 (ix1 e)) := by
  rw [val_main_v71_apply, val_main_v68_apply, val_main_v70_apply, val_main_v67_apply, val_main_v69_apply,
    val_main_c_15_apply, val_main_c_16_apply, v51_eq]
  rfl

theorem wrap79 (e : Fin 1700000) :
    val_main_v79 (F := Ideal) x1 (ix1 e) = wrapIdx (val_main_v6 (F := Ideal) x1 (ix1 e)) := by
  rw [val_main_v79_apply, val_main_v76_apply, val_main_v78_apply, val_main_v75_apply, val_main_v77_apply,
    val_main_c_17_apply, val_main_c_18_apply, v50_eq]
  rfl

/-! ### The edge weights -/

theorem nrm30 (e : Fin 1700000) :
    val_main_v30 (F := Ideal) x1 (ix1 e)
      = nrm (val_main_v6 (F := Ideal) x1) (val_main_v7 (F := Ideal) x1) (val_main_v15 (F := Ideal) x1) e := by
  have h22 : val_main_v22 (F := Ideal) x1 (ix1 e)
      = val_main_v15 (F := Ideal) x1 (ix1 (rowOf (val_main_v6 (F := Ideal) x1 (ix1 e)))) :=
    gather_scale_apply _ _ (val_main_v15 (F := Ideal) x1) (val_main_v6 (F := Ideal) x1) (val_main_v20 (F := Ideal) x1)
      (wrap20 x1) e
  have h29 : val_main_v29 (F := Ideal) x1 (ix1 e)
      = val_main_v15 (F := Ideal) x1 (ix1 (rowOf (val_main_v7 (F := Ideal) x1 (ix1 e)))) :=
    gather_scale_apply _ _ (val_main_v15 (F := Ideal) x1) (val_main_v7 (F := Ideal) x1) (val_main_v27 (F := Ideal) x1)
      (wrap27 x1) e
  rw [val_main_v30_apply, h22, h29]
  rfl

theorem nrm74 (e : Fin 1700000) :
    val_main_v74 (F := Ideal) x1 (ix1 e)
      = nrm (val_main_v6 (F := Ideal) x1) (val_main_v7 (F := Ideal) x1) (val_main_v15 (F := Ideal) x1) e := by
  have h66 : val_main_v66 (F := Ideal) x1 (ix1 e)
      = val_main_v59 (F := Ideal) x1 (ix1 (rowOf (val_main_v6 (F := Ideal) x1 (ix1 e)))) :=
    gather_scale_apply _ _ (val_main_v59 (F := Ideal) x1) (val_main_v6 (F := Ideal) x1) (val_main_v64 (F := Ideal) x1)
      (wrap64 x1) e
  have h73 : val_main_v73 (F := Ideal) x1 (ix1 e)
      = val_main_v59 (F := Ideal) x1 (ix1 (rowOf (val_main_v7 (F := Ideal) x1 (ix1 e)))) :=
    gather_scale_apply _ _ (val_main_v59 (F := Ideal) x1) (val_main_v7 (F := Ideal) x1) (val_main_v71 (F := Ideal) x1)
      (wrap71 x1) e
  rw [val_main_v74_apply, h66, h73, v59_eq]
  rfl

/-! ### The first layer -/

/-- The first dense product at an entry. -/
theorem xw4 (n : Fin 100000) (j : Fin 128) : val_main_v4 (F := Ideal) x0 x2 (ix2 n j) = refXW x0 x2 n j := by
  rw [val_main_v4_apply]
  unfold refXW
  refine Finset.sum_congr rfl fun k _ => ?_
  have hl : lidx_main_v4 (ix2 n j) k = ix2 n k :=
    funext fun a => Fin.ext (by match a with | ⟨0, _⟩ => rfl | ⟨1, _⟩ => rfl)
  have hr : ridx_main_v4 (ix2 n j) k = ix2 k j :=
    funext fun a => Fin.ext (by match a with | ⟨0, _⟩ => rfl | ⟨1, _⟩ => rfl)
  rw [hl, hr]

/-- An edge's update row: the source node's row of the dense product, times the edge's weight. -/
theorem upd40 (e : Fin 1700000) (k : Fin 128) :
    val_main_v40 (F := Ideal) x0 x1 x2 (ix2 e k)
      = refXW x0 x2 (rowOf (val_main_v6 (F := Ideal) x1 (ix1 e))) k
        * nrm (val_main_v6 (F := Ideal) x1) (val_main_v7 (F := Ideal) x1) (val_main_v15 (F := Ideal) x1) e := by
  have hg : val_main_v37 (F := Ideal) x0 x1 x2 (ix2 e k)
      = val_main_v4 (F := Ideal) x0 x2 (ix2 (rowOf (val_main_v6 (F := Ideal) x1 (ix1 e))) k) :=
    gather_table_apply _ _ (val_main_v4 (F := Ideal) x0 x2) (val_main_v6 (F := Ideal) x1) (val_main_v35 (F := Ideal) x1)
      (wrap35 x1) e k
  have hi : idx_main_v38 (idx_main_v39 (ix2 e k)) = ix1 e := funext fun a => by match a with | ⟨0, _⟩ => rfl
  rw [val_main_v40_apply, val_main_v39_apply, val_main_v38_apply, hi, nrm30, hg, xw4]
  rfl

/-- The table the first aggregation adds into is zero. -/
theorem zeros41 (i : S100000x128.Idx) : val_main_v41 (F := Ideal) i = 0 := by
  rw [val_main_v41_apply, val_main_cst_8_apply]
  exact Ideal.ofBits_zero_f32

/-- The first aggregation's index column is the target list. -/
theorem col42 (e : Fin 1700000) :
    val_main_v42 (F := Ideal) x1 (LibSegmentSum.segIdx e) = val_main_v7 (F := Ideal) x1 (ix1 e) := by
  rw [val_main_v42_apply]
  exact congrArg _ (funext fun a => by match a with | ⟨0, _⟩ => rfl)

/-- The first aggregation is the exact scatter-add of the update rows. -/
theorem sc43_unfold : val_main_v43 (F := Ideal) x0 x1 x2
    = Ideal.hostScatterAdd scatter_S100000x128_S1700000x1_S1700000x128_1_0_0_1 (val_main_v41 (F := Ideal))
        (val_main_v42 (F := Ideal) x1) (val_main_v40 (F := Ideal) x0 x1 x2) := rfl

/-- That scatter-add at an entry. -/
theorem agg43' (n : Fin 100000) (f : Fin 128) :
    Ideal.hostScatterAdd scatter_S100000x128_S1700000x1_S1700000x128_1_0_0_1 (val_main_v41 (F := Ideal))
        (val_main_v42 (F := Ideal) x1) (val_main_v40 (F := Ideal) x0 x1 x2) (ix2 n f)
      = aggW (val_main_v6 (F := Ideal) x1) (val_main_v7 (F := Ideal) x1) (val_main_v15 (F := Ideal) x1) (refXW x0 x2) n f :=
  scatter_weighted_apply (H := 128) Facts₀.scatter_S100000x128_S1700000x1_S1700000x128_1_0_0_1_wf
    (val_main_v41 (F := Ideal)) zeros41
    (val_main_v6 (F := Ideal) x1) (val_main_v7 (F := Ideal) x1) (val_main_v15 (F := Ideal) x1) (refXW x0 x2)
    (val_main_v42 (F := Ideal) x1) (col42 x1) (val_main_v40 (F := Ideal) x0 x1 x2) (upd40 x0 x1 x2) n f

/-- The first aggregation at an entry. -/
theorem agg43 (n : Fin 100000) (f : Fin 128) :
    val_main_v43 (F := Ideal) x0 x1 x2 (ix2 n f)
      = aggW (val_main_v6 (F := Ideal) x1) (val_main_v7 (F := Ideal) x1) (val_main_v15 (F := Ideal) x1) (refXW x0 x2) n f :=
  (congrFun (sc43_unfold x0 x1 x2) (ix2 n f)).trans (agg43' x0 x1 x2 n f)

/-- The hidden features at an entry. -/
theorem h47 (n : Fin 100000) (j : Fin 128) :
    val_main_v47 (F := Ideal) x0 x1 x2 x3 (ix2 n j)
      = refH (val_main_v6 (F := Ideal) x1) (val_main_v7 (F := Ideal) x1) (val_main_v15 (F := Ideal) x1) x0 x2 x3 n j := by
  have hi : idx_main_v44 (idx_main_v45 (ix2 n j)) = ix1 j := funext fun a => by match a with | ⟨0, _⟩ => rfl
  rw [val_main_v47_apply, val_main_v46_apply, agg43, val_main_v45_apply, val_main_v44_apply, hi,
    val_main_call1_v0_apply, val_main_call1_cst_apply]
  show max (_ + _) (Ideal.ofBits .f32 0x00000000#32) = _
  rw [Ideal.ofBits_zero_f32]
  rfl

/-! ### The second layer -/

/-- The second dense product at an entry. -/
theorem hw48 (n : Fin 100000) (j : Fin 64) :
    val_main_v48 (F := Ideal) x0 x1 x2 x3 x4 (ix2 n j)
      = refHW (val_main_v6 (F := Ideal) x1) (val_main_v7 (F := Ideal) x1) (val_main_v15 (F := Ideal) x1) x0 x2 x3 x4 n j := by
  rw [val_main_v48_apply]
  unfold refHW
  refine Finset.sum_congr rfl fun k _ => ?_
  have hl : lidx_main_v48 (ix2 n j) k = ix2 n k :=
    funext fun a => Fin.ext (by match a with | ⟨0, _⟩ => rfl | ⟨1, _⟩ => rfl)
  have hr : ridx_main_v48 (ix2 n j) k = ix2 k j :=
    funext fun a => Fin.ext (by match a with | ⟨0, _⟩ => rfl | ⟨1, _⟩ => rfl)
  rw [hl, hr, h47]

/-- An edge's update row in the second layer. -/
theorem upd84 (e : Fin 1700000) (k : Fin 64) :
    val_main_v84 (F := Ideal) x0 x1 x2 x3 x4 (ix2 e k)
      = refHW (val_main_v6 (F := Ideal) x1) (val_main_v7 (F := Ideal) x1) (val_main_v15 (F := Ideal) x1) x0 x2 x3 x4
          (rowOf (val_main_v6 (F := Ideal) x1 (ix1 e))) k
        * nrm (val_main_v6 (F := Ideal) x1) (val_main_v7 (F := Ideal) x1) (val_main_v15 (F := Ideal) x1) e := by
  have hg : val_main_v81 (F := Ideal) x0 x1 x2 x3 x4 (ix2 e k)
      = val_main_v48 (F := Ideal) x0 x1 x2 x3 x4 (ix2 (rowOf (val_main_v6 (F := Ideal) x1 (ix1 e))) k) :=
    gather_table_apply _ _ (val_main_v48 (F := Ideal) x0 x1 x2 x3 x4) (val_main_v6 (F := Ideal) x1)
      (val_main_v79 (F := Ideal) x1) (wrap79 x1) e k
  have hi : idx_main_v82 (idx_main_v83 (ix2 e k)) = ix1 e := funext fun a => by match a with | ⟨0, _⟩ => rfl
  rw [val_main_v84_apply, val_main_v83_apply, val_main_v82_apply, hi, nrm74, hg, hw48]
  rfl

/-- The table the second aggregation adds into is zero. -/
theorem zeros85 (i : S100000x64.Idx) : val_main_v85 (F := Ideal) i = 0 := by
  rw [val_main_v85_apply, val_main_cst_19_apply]
  exact Ideal.ofBits_zero_f32

/-- The second aggregation's index column is the target list. -/
theorem col86 (e : Fin 1700000) :
    val_main_v86 (F := Ideal) x1 (LibSegmentSum.segIdx e) = val_main_v7 (F := Ideal) x1 (ix1 e) := by
  rw [val_main_v86_apply, v51_eq]
  exact congrArg _ (funext fun a => by match a with | ⟨0, _⟩ => rfl)

/-- The second aggregation is the exact scatter-add of the update rows. -/
theorem sc87_unfold : val_main_v87 (F := Ideal) x0 x1 x2 x3 x4
    = Ideal.hostScatterAdd scatter_S100000x64_S1700000x1_S1700000x64_1_0_0_1 (val_main_v85 (F := Ideal))
        (val_main_v86 (F := Ideal) x1) (val_main_v84 (F := Ideal) x0 x1 x2 x3 x4) := rfl

/-- That scatter-add at an entry. -/
theorem agg87' (n : Fin 100000) (f : Fin 64) :
    Ideal.hostScatterAdd scatter_S100000x64_S1700000x1_S1700000x64_1_0_0_1 (val_main_v85 (F := Ideal))
        (val_main_v86 (F := Ideal) x1) (val_main_v84 (F := Ideal) x0 x1 x2 x3 x4) (ix2 n f)
      = aggW (val_main_v6 (F := Ideal) x1) (val_main_v7 (F := Ideal) x1) (val_main_v15 (F := Ideal) x1)
          (refHW (val_main_v6 (F := Ideal) x1) (val_main_v7 (F := Ideal) x1) (val_main_v15 (F := Ideal) x1) x0 x2 x3 x4) n f :=
  scatter_weighted_apply (H := 64) Facts₀.scatter_S100000x64_S1700000x1_S1700000x64_1_0_0_1_wf
    (val_main_v85 (F := Ideal)) zeros85
    (val_main_v6 (F := Ideal) x1) (val_main_v7 (F := Ideal) x1) (val_main_v15 (F := Ideal) x1)
    (refHW (val_main_v6 (F := Ideal) x1) (val_main_v7 (F := Ideal) x1) (val_main_v15 (F := Ideal) x1) x0 x2 x3 x4)
    (val_main_v86 (F := Ideal) x1) (col86 x1) (val_main_v84 (F := Ideal) x0 x1 x2 x3 x4) (upd84 x0 x1 x2 x3 x4) n f

/-- The second aggregation at an entry. -/
theorem agg87 (n : Fin 100000) (f : Fin 64) :
    val_main_v87 (F := Ideal) x0 x1 x2 x3 x4 (ix2 n f)
      = aggW (val_main_v6 (F := Ideal) x1) (val_main_v7 (F := Ideal) x1) (val_main_v15 (F := Ideal) x1)
          (refHW (val_main_v6 (F := Ideal) x1) (val_main_v7 (F := Ideal) x1) (val_main_v15 (F := Ideal) x1) x0 x2 x3 x4) n f :=
  (congrFun (sc87_unfold x0 x1 x2 x3 x4) (ix2 n f)).trans (agg87' x0 x1 x2 x3 x4 n f)

/-- THE REFERENCE'S RESULT AT AN ENTRY is the two-layer convolution of the argument arrays, with the edge lists and
    the scale the terms the program computes them by. -/
theorem ref_eq (n : Fin 100000) (j : Fin 64) :
    val_main_v90 (F := Ideal) x0 x1 x2 x3 x4 x5 (ix2 n j)
      = Cert.Gcn.refOut (val_main_v6 (F := Ideal) x1) (val_main_v7 (F := Ideal) x1) (val_main_v15 (F := Ideal) x1)
          x0 x2 x3 x4 x5 n j := by
  have hi : idx_main_v88 (idx_main_v89 (ix2 n j)) = ix1 j := funext fun a => by match a with | ⟨0, _⟩ => rfl
  rw [val_main_v90_apply, agg87, val_main_v89_apply, val_main_v88_apply, hi]
  rfl

end Layers

end Cert.ReferenceIdeal.RefValue

end
-- ==== Proof.LibIndexWrap.lean ====
/-
  An index already in range passes unchanged through jnp's negative-index wrap and a gather's clamp.

  `x[i]` in jnp first replaces a negative `i` by `i + N` (a signed compare with zero, an add, a select) and
  the gather then clamps its start index, read as a signed number, into `[0, N - 1]`.  For a word that
  already names a row — `0 ≤ i < N`, with `N` at most `2 ^ 31` — neither step changes it.
-/
import Idealize.ShloMosaic.Lib.ValueIdx

open Idealize.ShloMosaic Idealize.ShloMosaic.ValueIdx

namespace Cert.Proof.LibIndexWrap

/-- A word below `2 ^ 31` read as a signed number is the word read as a natural number. -/
theorem toInt_eq_toNat (w : BitVec 32) (h : w.toNat < 2 ^ 31) : w.toInt = (w.toNat : ℤ) := by
  rw [BitVec.toInt_eq_toNat_cond]
  split <;> omega

/-- Such a word is not negative: the signed compare with zero answers no. -/
theorem cmpi_slt_zero (w : BitVec 32) (h : w.toNat < 2 ^ 31) : IntOp.cmpi .slt w 0#32 = 0#1 := by
  have hs : w.slt 0#32 = false := by
    rw [BitVec.slt, toInt_eq_toNat w h]
    simp
  unfold IntOp.cmpi
  rw [hs]
  rfl

/-- The wrap leaves it alone. -/
theorem wrap_eq (w N : BitVec 32) (h : w.toNat < 2 ^ 31) :
    Scalar.select (IntOp.cmpi .slt w 0#32) (IntOp.addi w N) w = w := by
  rw [cmpi_slt_zero w h]
  exact select_zero _ _

/-- The clamp leaves it alone. -/
theorem clamp_eq (w : BitVec 32) (N : ℕ) (hN : N ≤ 2 ^ 31) (h : w.toNat < N) :
    min w.toInt.toNat (N - 1) = w.toNat := by
  rw [toInt_eq_toNat w (by omega)]
  simp only [Int.toNat_natCast]
  omega

end Cert.Proof.LibIndexWrap
-- ==== Proof.Law.lean ====
/-
  The two arrangements of the graph convolution in Spec.lean agree, entry by entry, on the extended reals, whenever the
  per-node scale `dinv` is a nonnegative real at every node.  No finiteness of the features or the weights is used.

  The one law behind it: for a nonnegative real `c` and any finitely many extended reals, `(∑ aₑ) · c = ∑ (aₑ · c)` — on
  the extended reals multiplication by such a `c` distributes over addition even when infinities of both signs are
  summed.  With it, for a node `n`,

      ∑_{e → n} y[src e] · (dinv[src e] · dinv[dst e])  =  (∑_{e → n} y[src e] · dinv[src e]) · dinv[n],

  because an edge arrives at `n` exactly when its target word names row `n`, and a word that names a row is the row that
  indexing with it reads.  The second half of the file shows that the scale the programs compute,
  `if 0 < deg then rsqrt deg else 0`, is a nonnegative real whatever extended real `deg` is.
-/
import Idealize.ShloMosaic.PureOps.Ideal
import Idealize.ShloMosaic.Lib.ValueIdx
import proofs.«111790_j60129542735_2_alg».proof.Proof.Spec
import proofs.«111790_j60129542735_2_alg».proof.Proof.LibIndexWrap

noncomputable section

open scoped BigOperators

namespace Cert.Gcn

open Idealize.ShloMosaic Idealize.ShloMosaic.ValueIdx

/-- Multiplication by a nonnegative real distributes over a finite sum of extended reals. -/
theorem sum_mul_of_nonneg_of_ne_top {ι : Type*} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- A target word that, read signed, is the node `n` names row `n`: the wrap and the clamp leave it alone. -/
theorem rowOf_of_toInt_eq (w : BitVec 32) (n : Fin 100000) (h : w.toInt = ((n.val : ℕ) : ℤ)) : rowOf w = n := by
  have hn := n.isLt
  have hw := w.isLt
  have hlt : w.toNat < 2 ^ 31 := by
    rw [BitVec.toInt_eq_toNat_cond] at h
    split at h <;> omega
  have hnat : w.toNat = n.val := by
    rw [Cert.Proof.LibIndexWrap.toInt_eq_toNat w hlt] at h
    exact_mod_cast h
  apply Fin.ext
  show min (wrapIdx w).toInt.toNat (100000 - 1) = n.val
  unfold wrapIdx
  rw [Cert.Proof.LibIndexWrap.wrap_eq w _ hlt, Cert.Proof.LibIndexWrap.clamp_eq w 100000 (by norm_num) (by omega)]
  exact hnat

section Layer

variable (src dst : Words 1700000) (dinv : Vec1 100000)

/-- ONE LAYER: scaling each carried row by its edge's weight is scaling the table's rows before the edges carry them and
    the summed rows afterwards. -/
theorem aggW_eq (hd : ∀ n : Fin 100000, 0 ≤ dinv (ix1 n) ∧ dinv (ix1 n) ≠ ⊤) {H : Nat}
    (y : Fin 100000 → Fin H → EReal) (n : Fin 100000) (f : Fin H) :
    aggW src dst dinv y n f = agg src dst (fun m j => y m j * dinv (ix1 m)) n f * dinv (ix1 n) := by
  unfold aggW agg
  rw [zero_add, zero_add, sum_mul_of_nonneg_of_ne_top _ _ (hd n).1 (hd n).2]
  refine Finset.sum_congr rfl fun e _ => ?_
  by_cases h : (dst (ix1 e)).toInt = ((n.val : ℕ) : ℤ)
  · rw [if_pos h, if_pos h]
    unfold nrm
    rw [rowOf_of_toInt_eq _ n h, mul_assoc]
  · rw [if_neg h, if_neg h, zero_mul]

variable (x : Mat 100000 128) (W1 : Mat 128 128) (b1 : Vec1 128) (W2 : Mat 128 64) (b2 : Vec1 64)

theorem refH_eq (hd : ∀ n : Fin 100000, 0 ≤ dinv (ix1 n) ∧ dinv (ix1 n) ≠ ⊤) (n : Fin 100000) (j : Fin 128) :
    refH src dst dinv x W1 b1 n j = kerH src dst dinv x W1 b1 n j := by
  unfold refH kerH
  rw [aggW_eq src dst dinv hd]
  rfl

/-- THE TWO ARRANGEMENTS AGREE. -/
theorem refOut_eq_kerOut (hd : ∀ n : Fin 100000, 0 ≤ dinv (ix1 n) ∧ dinv (ix1 n) ≠ ⊤) (n : Fin 100000) (j : Fin 64) :
    refOut src dst dinv x W1 b1 W2 b2 n j = kerOut src dst dinv x W1 b1 W2 b2 n j := by
  unfold refOut kerOut
  rw [aggW_eq src dst dinv hd]
  refine congrArg (fun a => agg src dst a n j * dinv (ix1 n) + b2 (ix1 j)) ?_
  funext m i
  unfold refHW kerP1
  refine congrArg (· * dinv (ix1 m)) (Finset.sum_congr rfl fun k _ => ?_)
  rw [refH_eq src dst dinv x W1 b1 hd]

end Layer

/-! ### The scale is a nonnegative real -/

/-- `if 0 < t then 1/√t else 0`, with `1/√⊤ = 0`, is a nonnegative real for every extended real `t`. -/
theorem scale_nonneg_ne_top (t : EReal) :
    0 ≤ (if 0 < t then Ideal.rsqrt t else 0) ∧ (if 0 < t then Ideal.rsqrt t else 0) ≠ ⊤ := by
  induction t using EReal.rec with
  | bot => simp
  | top => simp
  | coe r =>
    by_cases h : (0 : EReal) < (r : EReal)
    · have hr : 0 < r := by exact_mod_cast h
      rw [if_pos h, Ideal.rsqrt_coe, if_neg (not_lt.mpr hr.le), if_neg hr.ne']
      exact ⟨by exact_mod_cast (inv_nonneg.mpr (Real.sqrt_nonneg r)), EReal.coe_ne_top _⟩
    · rw [if_neg h]
      exact ⟨le_refl _, EReal.zero_ne_top⟩

end Cert.Gcn

end
-- ==== Proof.RefScale.lean ====
/-
  The reference's per-node scale is a nonnegative real.

  The scale of node `n` is `1/√d` where `d`, the node's degree, is positive, and zero otherwise — a comparison of the
  degree with zero selecting between the reciprocal square root and the zero constant.  Whatever extended real the degree
  is, that value is nonnegative and is not `⊤` (`Cert.Gcn.scale_nonneg_ne_top`).  The degree itself, a sum scattered over
  the edges, is never opened here.
-/
import proofs.«111790_j60129542735_2_alg».proof.Proof.RefRead
import proofs.«111790_j60129542735_2_alg».proof.Proof.Law

noncomputable section

namespace Cert.ReferenceIdeal.RefScale

open Cert.ReferenceIdeal Cert.ReferenceIdeal.ReadP Idealize.ShloMosaic Idealize.ShloMosaic.ValueIdx

/-- The comparison "greater than zero" selecting between the reciprocal square root and zero is the `if`. -/
theorem select_gt_zero (t : EReal) :
    Scalar.select (Ideal.cmp .ogt t 0) (Ideal.rsqrt t) (0 : EReal) = if 0 < t then Ideal.rsqrt t else 0 := by
  have hc : Ideal.cmp .ogt t 0 = BitVec.ofBool (decide ((0 : EReal) < t)) := rfl
  by_cases h : (0 : EReal) < t
  · rw [hc, decide_eq_true h, if_pos h]
    exact select_one _ _
  · rw [hc, decide_eq_false h, if_neg h]
    exact select_zero _ _

/-- The scale of node `n` is `1/√d` for a positive degree `d` and zero otherwise. -/
theorem scale_eq (x1 : (⟨S2x1600000, .i32⟩ : BufTy).Contents (Elt Ideal)) (n : Fin 100000) :
    val_main_v15 (F := Ideal) x1 (ix1 n)
      = if 0 < val_main_v11 (F := Ideal) x1 (ix1 n) then Ideal.rsqrt (val_main_v11 (F := Ideal) x1 (ix1 n)) else 0 := by
  rw [val_main_v15_apply, val_main_v13_apply, val_main_v14_apply, val_main_call0_v1_apply, val_main_call0_v0_apply,
    val_main_cst_2_apply, val_main_v12_apply, val_main_cst_1_apply]
  generalize val_main_v11 (F := Ideal) x1 (ix1 n) = t
  show Scalar.select (Ideal.cmp .ogt t (Ideal.ofBits .f32 0x00000000#32)) (Ideal.rsqrt t) (Ideal.ofBits .f32 0x00000000#32) = _
  rw [Ideal.ofBits_zero_f32]
  exact select_gt_zero t

/-- The scale of every node is a nonnegative real. -/
theorem scale_ok (x1 : (⟨S2x1600000, .i32⟩ : BufTy).Contents (Elt Ideal)) (n : Fin 100000) :
    0 ≤ val_main_v15 (F := Ideal) x1 (ix1 n) ∧ val_main_v15 (F := Ideal) x1 (ix1 n) ≠ ⊤ := by
  rw [scale_eq x1 n]
  exact Cert.Gcn.scale_nonneg_ne_top _

end Cert.ReferenceIdeal.RefScale

end
-- ==== Proof.KRun.lean ====
/-
  The kernel program's run with its RESULT named.  @main is eight segments — three stretches of host operations, the
  first dense stage, a stretch (gather and scatter-add), the second dense stage, a stretch, the third dense stage — and
  the buffer contents at each boundary are a fold through them: `W8 m ρ c` is what every unscoped buffer of core `c` holds
  when @main returns.  `run_all` says so for every weakly fair execution, and `run_out` reads it at the result buffer
  and at the six argument buffers (which no segment writes).
-/
import proofs.«111790_j60129542735_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The same run read at the result buffer and at the argument buffers: the result is the last boundary's contents of
    `main_v40`, the arguments are as launched. -/
theorem run_out : θ_run defs (onTc (τ := τ) (main (F := F))) ⟨m, fun _ => 0, ρ⟩ (fun r => ∀ c : Dev nD,
      r.2.mem ((c.tc : Thread nD τ).loc main_v40) = W8 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨h c _ (mem_uc main_v40 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)
    (run_all m ρ)

end Cert.KernelIdeal.RunValue

end
-- ==== Proof.LibHostAggregate.lean ====
/-
  `segment_sum(y[src], dst)` on the host, read at an entry, with the accumulating scatter spelt as the HOST operation
  (`Host.scatterAdd`) read at the ideal values — the form a printed program has it in.  At the ideal values the host's
  accumulating scatter is the exact sum, so this is LibAggregate's `gather_scatter_apply`, stated for any extents.
-/
import Idealize.ShloMosaic.PureOps.Ideal
import Idealize.ShloMosaic.Lib.ValueIdx
import proofs.«111790_j60129542735_2_alg».proof.Proof.LibAggregate

noncomputable section

open scoped BigOperators

namespace Cert.Proof.LibHostAggregate

open Idealize.ShloMosaic Idealize.ShloMosaic.ValueIdx

/-- GATHER ROWS, THEN `Host.scatterAdd` THEM INTO ZEROS, at entry `(n, f)`, at the ideal values. -/
theorem host_gather_scatter_apply {N E H : Nat} (hN : 0 < N)
    (swf : ScatterDims.WF ⟨2, ![N, H]⟩ ⟨2, ![E, 1]⟩ ⟨2, ![E, H]⟩ [1] [0] [0] 1)
    (gwf : GatherDims.WF ⟨2, ![N, H]⟩ ⟨2, ![E, 1]⟩ ⟨2, ![E, H]⟩ [1] [0] [] [0] [] 1 ![1, H])
    (hb : (⟨1, ![E]⟩ : Shape).BroadcastsInDim ⟨2, ![E, 1]⟩ (![0] : Fin 1 → Fin 2))
    (zeros : FVec Ideal ⟨2, ![N, H]⟩ .f32) (hz : ∀ i, zeros i = 0)
    (y : FVec Ideal ⟨2, ![N, H]⟩ .f32) (srcv dstv : (⟨1, ![E]⟩ : Shape).Idx → BitVec 32) (n : Fin N) (f : Fin H) :
    Host.scatterAdd (F := Ideal) (Cert.Proof.LibSegmentSum.rowDims N E H swf) zeros
        (broadcastInDim (⟨2, ![E, 1]⟩ : Shape) (![0] : Fin 1 → Fin 2) hb dstv)
        (Host.gather (Cert.Proof.LibGatherRows.rowDims N E H gwf) y (broadcastInDim (⟨2, ![E, 1]⟩ : Shape) (![0] : Fin 1 → Fin 2) hb srcv))
        (ix2 n f)
      = 0 + ∑ e : Fin E, if (dstv (ix1 e)).toInt = ((n.val : ℕ) : ℤ)
          then y (ix2 ⟨min (srcv (ix1 e)).toInt.toNat (N - 1), by omega⟩ f) else 0 :=
  Cert.Proof.LibAggregate.gather_scatter_apply hN swf gwf hb zeros hz y srcv dstv n f

end Cert.Proof.LibHostAggregate

end
-- ==== Proof.LibColumnCast.lean ====
/-
  A vector `[a]` cast to a column `[a, 1]` reads, at `(i, u)`, the vector at `i`, whatever the unit coordinate `u`.
-/
import Idealize.ShloMosaic.Lib.Pipeline.Value
import Idealize.ShloMosaic.Lib.ValueIdx

namespace Cert.Proof.LibColumnCast

open Idealize.ShloMosaic Idealize.ShloMosaic.ValueIdx

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

end Cert.Proof.LibColumnCast
-- ==== Proof.KHost.lean ====
/-
  What the kernel program's host stretches leave in the buffers the three dense stages and the two aggregations read.

  * The two edge lists, the per-node scale and the two bias rows are computed once, before the first dense stage, and no
    later segment writes them: at every later boundary they are what they were at the first stage's entry.  There they are
    the very terms the reference computes its own by (the same slices, concatenations, degree count and inverse square
    root of the edge-index argument), so they are named here by the reference's stages.
  * Each of the two stretches between dense stages gathers the rows of the table the stage before wrote, at the wrapped
    source words, and scatter-adds them into zeros at the target words: read at an entry, Spec.lean's `agg`.
-/
import proofs.«111790_j60129542735_2_alg».proof.Proof.Gen.KernelIdeal.Frame
import proofs.«111790_j60129542735_2_alg».proof.Proof.RefRead
import proofs.«111790_j60129542735_2_alg».proof.Proof.Spec
import proofs.«111790_j60129542735_2_alg».proof.Proof.LibAggregate
import proofs.«111790_j60129542735_2_alg».proof.Proof.LibHostAggregate
import proofs.«111790_j60129542735_2_alg».proof.Proof.LibColumnCast
import Idealize.ShloMosaic.Lib.StableHlo.Run
import Idealize.ShloMosaic.Lib.ValueLayout

set_option maxRecDepth 16384

noncomputable section

open scoped BigOperators

namespace Cert.KernelIdeal.Chain

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-! ## The aggregations, from any entry contents -/

/-- The stretch before the third dense stage, run from any contents `W`: the table it leaves for that stage is the
    plain aggregation of the table `main_v29` along the edge lists `main_v5` (sources) and `main_v6` (targets). -/
theorem agg_v39 (W : Valuation τ sig (Elt Ideal)) (n : Fin 100000) (f : Fin 64) :
    (StableHlo.after hostOps2 W (Proc.devRef .tc main_v39) : S100000x64.Idx → EReal) (ix2 n f)
      = Cert.Gcn.agg (W (Proc.devRef .tc main_v5)) (W (Proc.devRef .tc main_v6))
          (fun r k => (W (Proc.devRef .tc main_v29) : S100000x64.Idx → EReal) (ix2 r k)) n f := by
  simp only [hostOps2]
  after_results
  have hd : scatter_S100000x64_S1700000x1_S1700000x64_1_0_0_1 = Cert.Proof.LibSegmentSum.rowDims 100000 1700000 64 scatter_S100000x64_S1700000x1_S1700000x64_1_0_0_1_wf := rfl
  have hg : gather_S100000x64_S1700000x1_S1700000x64_1_0_n_n_0_1_164 = Cert.Proof.LibGatherRows.rowDims 100000 1700000 64 gather_S100000x64_S1700000x1_S1700000x64_1_0_n_n_0_1_164_wf := rfl
  rw [hd, hg]
  refine (Cert.Proof.LibHostAggregate.host_gather_scatter_apply (N := 100000) (E := 1700000) (H := 64) (by norm_num)
    scatter_S100000x64_S1700000x1_S1700000x64_1_0_0_1_wf gather_S100000x64_S1700000x1_S1700000x64_1_0_n_n_0_1_164_wf bcast_S1700000_S1700000x1_0
    (broadcastInDim S100000x64 ![] bcast_S_S100000x64 (constant (F := Ideal) S_ .f32 0x00000000#32))
    (fun _ => Ideal.ofBits_zero_f32) (W (Proc.devRef .tc main_v29))
    (select (cmpi .slt (W (Proc.devRef .tc main_v5)) (broadcastInDim S1700000 ![] bcast_S_S1700000 (constantI S_ 32 0#32)))
      (addi (W (Proc.devRef .tc main_v5)) (broadcastInDim S1700000 ![] bcast_S_S1700000 (constantI S_ 32 100000#32)))
      (W (Proc.devRef .tc main_v5)))
    (W (Proc.devRef .tc main_v6)) n f).trans ?_
  unfold Cert.Gcn.agg
  refine congrArg (0 + ·) (Finset.sum_congr rfl fun e _ => ?_)
  refine if_congr Iff.rfl ?_ rfl
  refine congrArg (W (Proc.devRef .tc main_v29)) (congrArg₂ ix2 (Fin.ext ?_) rfl)
  rfl

/-- The stretch before the second dense stage, likewise: the plain aggregation of the table `main_v18`. -/
theorem agg_v28 (W : Valuation τ sig (Elt Ideal)) (n : Fin 100000) (f : Fin 128) :
    (StableHlo.after hostOps1 W (Proc.devRef .tc main_v28) : S100000x128.Idx → EReal) (ix2 n f)
      = Cert.Gcn.agg (W (Proc.devRef .tc main_v5)) (W (Proc.devRef .tc main_v6))
          (fun r k => (W (Proc.devRef .tc main_v18) : S100000x128.Idx → EReal) (ix2 r k)) n f := by
  simp only [hostOps1]
  after_results
  have hd : scatter_S100000x128_S1700000x1_S1700000x128_1_0_0_1 = Cert.Proof.LibSegmentSum.rowDims 100000 1700000 128 scatter_S100000x128_S1700000x1_S1700000x128_1_0_0_1_wf := rfl
  have hg : gather_S100000x128_S1700000x1_S1700000x128_1_0_n_n_0_1_1128 = Cert.Proof.LibGatherRows.rowDims 100000 1700000 128 gather_S100000x128_S1700000x1_S1700000x128_1_0_n_n_0_1_1128_wf := rfl
  rw [hd, hg]
  refine (Cert.Proof.LibHostAggregate.host_gather_scatter_apply (N := 100000) (E := 1700000) (H := 128) (by norm_num)
    scatter_S100000x128_S1700000x1_S1700000x128_1_0_0_1_wf gather_S100000x128_S1700000x1_S1700000x128_1_0_n_n_0_1_1128_wf bcast_S1700000_S1700000x1_0
    (broadcastInDim S100000x128 ![] bcast_S_S100000x128 (constant (F := Ideal) S_ .f32 0x00000000#32))
    (fun _ => Ideal.ofBits_zero_f32) (W (Proc.devRef .tc main_v18))
    (select (cmpi .slt (W (Proc.devRef .tc main_v5)) (broadcastInDim S1700000 ![] bcast_S_S1700000 (constantI S_ 32 0#32)))
      (addi (W (Proc.devRef .tc main_v5)) (broadcastInDim S1700000 ![] bcast_S_S1700000 (constantI S_ 32 100000#32)))
      (W (Proc.devRef .tc main_v5)))
    (W (Proc.devRef .tc main_v6)) n f).trans ?_
  unfold Cert.Gcn.agg
  refine congrArg (0 + ·) (Finset.sum_congr rfl fun e _ => ?_)
  refine if_congr Iff.rfl ?_ rfl
  refine congrArg (W (Proc.devRef .tc main_v18)) (congrArg₂ ix2 (Fin.ext ?_) rfl)
  rfl

/-! ## The layouts the last stretch before the first dense stage makes -/

/-- The scale laid out as a column, read at `(r, u)`, is the scale at `r`. -/
theorem col_v15 (W : Valuation τ sig (Elt Ideal)) (r : Fin 100000) (u : Fin 1) :
    (StableHlo.after hostOps0_2 W (Proc.devRef .tc main_v15) : S100000x1.Idx → EReal) (ix2 r u)
      = (W (Proc.devRef .tc main_v14) : S100000.Idx → EReal) (ix1 r) := by
  simp only [hostOps0_2]
  after_results
  exact Cert.Proof.LibColumnCast.shapeCast_a_a1_apply (W (Proc.devRef .tc main_v14)) shapeCasts_S100000_S100000x1 r u

/-- The first bias laid out as a row, read at `(u, k)`, is the bias at `k`. -/
theorem row_v16 (W : Valuation τ sig (Elt Ideal)) (u : Fin 1) (k : Fin 128) :
    (StableHlo.after hostOps0_2 W (Proc.devRef .tc main_v16) : S1x128.Idx → EReal) (ix2 u k)
      = (W (Proc.devRef .tc main_arg3) : S128.Idx → EReal) (ix1 k) := by
  simp only [hostOps0_2]
  after_results
  exact shapeCast_a_1a_apply (W (Proc.devRef .tc main_arg3)) shapeCasts_S128_S1x128 u k

/-- The second bias laid out as a row, read at `(u, j)`, is the bias at `j`. -/
theorem row_v17 (W : Valuation τ sig (Elt Ideal)) (u : Fin 1) (j : Fin 64) :
    (StableHlo.after hostOps0_2 W (Proc.devRef .tc main_v17) : S1x64.Idx → EReal) (ix2 u j)
      = (W (Proc.devRef .tc main_arg5) : S64.Idx → EReal) (ix1 j) := by
  simp only [hostOps0_2]
  after_results
  exact shapeCast_a_1a_apply (W (Proc.devRef .tc main_arg5)) shapeCasts_S64_S1x64 u j

end Cert.KernelIdeal.Chain

end
-- ==== Proof.KBase.lean ====
/-
  At the first dense stage's entry the kernel program's edge lists and scale are the reference's own: both programs
  compute them from the edge-index argument by the same slices, reshapes, concatenations with the self-loop indices,
  degree count, compare, inverse square root and select.  The argument arrays the dense stages read are as launched.
-/
import proofs.«111790_j60129542735_2_alg».proof.Proof.Gen.KernelIdeal.Frame
import proofs.«111790_j60129542735_2_alg».proof.Proof.RefRead
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- The source list (the given sources, then one self-loop per node) is the reference's. -/
theorem W3_main_v5 : (W3 m ρ c (Proc.devRef .tc main_v5) : S1700000.Idx → BitVec 32)
    = Cert.ReferenceIdeal.ReadP.val_main_v6 (F := Ideal) (m ((c : Thread nD τ).loc main_arg1)) := by
  show StableHlo.after hostOps0_2 (StableHlo.after hostOps0_1 (StableHlo.after hostOps0 (W0 m ρ c))) (Proc.devRef .tc main_v5) = _
  simp only [hostOps0_2, hostOps0_1, hostOps0]
  after_results
  unfold Cert.ReferenceIdeal.ReadP.val_main_v6 Cert.ReferenceIdeal.ReadP.val_main_v1 Cert.ReferenceIdeal.ReadP.val_main_v0 Cert.ReferenceIdeal.ReadP.val_main_v5
  rfl

/-- The target list is the reference's. -/
theorem W3_main_v6 : (W3 m ρ c (Proc.devRef .tc main_v6) : S1700000.Idx → BitVec 32)
    = Cert.ReferenceIdeal.ReadP.val_main_v7 (F := Ideal) (m ((c : Thread nD τ).loc main_arg1)) := by
  show StableHlo.after hostOps0_2 (StableHlo.after hostOps0_1 (StableHlo.after hostOps0 (W0 m ρ c))) (Proc.devRef .tc main_v6) = _
  simp only [hostOps0_2, hostOps0_1, hostOps0]
  after_results
  unfold Cert.ReferenceIdeal.ReadP.val_main_v7 Cert.ReferenceIdeal.ReadP.val_main_v3 Cert.ReferenceIdeal.ReadP.val_main_v2 Cert.ReferenceIdeal.ReadP.val_main_v5
  rfl

/-- The degree (one for every edge that arrives, self-loop included) is the reference's. -/
theorem W1_main_v10 : (W1 m ρ c (Proc.devRef .tc main_v10) : FVec Ideal S100000 .f32)
    = Cert.ReferenceIdeal.ReadP.val_main_v11 (F := Ideal) (m ((c : Thread nD τ).loc main_arg1)) := by
  show StableHlo.after hostOps0 (W0 m ρ c) (Proc.devRef .tc main_v10) = _
  simp only [hostOps0]
  after_results
  unfold Cert.ReferenceIdeal.ReadP.val_main_v11 Cert.ReferenceIdeal.ReadP.val_main_v10 Cert.ReferenceIdeal.ReadP.val_main_v9 Cert.ReferenceIdeal.ReadP.val_main_cst_0 Cert.ReferenceIdeal.ReadP.val_main_v8 Cert.ReferenceIdeal.ReadP.val_main_cst Cert.ReferenceIdeal.ReadP.val_main_v7 Cert.ReferenceIdeal.ReadP.val_main_v3 Cert.ReferenceIdeal.ReadP.val_main_v2 Cert.ReferenceIdeal.ReadP.val_main_v5
  have hrec : scatter_S100000_S1700000x1_S1700000_n_0_0_1 = Cert.ReferenceIdeal.scatter_S100000_S1700000x1_S1700000_n_0_0_1 := rfl
  rw [hrec]
  rfl

set_option maxHeartbeats 1000000 in
/-- The compare of the degree with zero, the inverse square root of the degree and the zero the select falls back to,
    as the first stretch leaves them. -/
theorem W1_main_v12 : (W1 m ρ c (Proc.devRef .tc main_v12) : IVec S100000 1)
    = cmpf (F := Ideal) (s := S100000) (φ := .f32) .ogt (W1 m ρ c (Proc.devRef .tc main_v10) : FVec Ideal S100000 .f32) (broadcastInDim S100000 ![] bcast_S_S100000 (constant (F := Ideal) S_ .f32 0x00000000#32)) := by
  show (StableHlo.after hostOps0 (W0 m ρ c) (Proc.devRef .tc main_v12) : IVec S100000 1)
    = cmpf (F := Ideal) (s := S100000) (φ := .f32) .ogt (StableHlo.after hostOps0 (W0 m ρ c) (Proc.devRef .tc main_v10) : FVec Ideal S100000 .f32) (broadcastInDim S100000 ![] bcast_S_S100000 (constant (F := Ideal) S_ .f32 0x00000000#32))
  simp only [hostOps0]
  after_results
theorem W1_main_v13 : (W1 m ρ c (Proc.devRef .tc main_v13) : FVec Ideal S100000 .f32)
    = Host.rsqrt (F := Ideal) (s := S100000) (φ := .f32) (W1 m ρ c (Proc.devRef .tc main_v10) : FVec Ideal S100000 .f32) := by
  show (StableHlo.after hostOps0 (W0 m ρ c) (Proc.devRef .tc main_v13) : FVec Ideal S100000 .f32)
    = Host.rsqrt (F := Ideal) (s := S100000) (φ := .f32) (StableHlo.after hostOps0 (W0 m ρ c) (Proc.devRef .tc main_v10) : FVec Ideal S100000 .f32)
  simp only [hostOps0]
  after_results
theorem W1_main_cst_2 : (W1 m ρ c (Proc.devRef .tc main_cst_2) : FVec Ideal S_ .f32) = constant (F := Ideal) S_ .f32 0x00000000#32 := by
  show StableHlo.after hostOps0 (W0 m ρ c) (Proc.devRef .tc main_cst_2) = _
  simp only [hostOps0]
  after_results

/-- The select that makes the scale, run from any contents. -/
theorem scale_of (W : Valuation τ sig (Elt Ideal)) :
    (StableHlo.after hostOps0_1 W (Proc.devRef .tc main_v14) : FVec Ideal S100000 .f32)
      = select (W (Proc.devRef .tc main_v12) : IVec S100000 1) (W (Proc.devRef .tc main_v13) : FVec Ideal S100000 .f32)
          (broadcastInDim S100000 ![] bcast_S_S100000 (W (Proc.devRef .tc main_cst_2) : FVec Ideal S_ .f32)) := by
  simp only [hostOps0_1]
  after_results
  rfl

/-- The scale, as a vector, is the reference's. -/
theorem W2_main_v14 : (W2 m ρ c (Proc.devRef .tc main_v14) : FVec Ideal S100000 .f32)
    = Cert.ReferenceIdeal.ReadP.val_main_v15 (F := Ideal) (m ((c : Thread nD τ).loc main_arg1)) := by
  refine (scale_of (W1 m ρ c)).trans ?_
  rw [W1_main_v12 m ρ c, W1_main_v13 m ρ c, W1_main_cst_2 m ρ c, W1_main_v10 m ρ c]
  unfold Cert.ReferenceIdeal.ReadP.val_main_v15 Cert.ReferenceIdeal.ReadP.val_main_v13 Cert.ReferenceIdeal.ReadP.val_main_v14 Cert.ReferenceIdeal.ReadP.val_main_call0_v1 Cert.ReferenceIdeal.ReadP.val_main_call0_v0 Cert.ReferenceIdeal.ReadP.val_main_cst_2 Cert.ReferenceIdeal.ReadP.val_main_v12 Cert.ReferenceIdeal.ReadP.val_main_cst_1
  rfl

/-- The features, the two weight tables and the two biases are as launched when the first dense stage is entered. -/
theorem W3_main_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  simp only [hostOps0_2, hostOps0_1, hostOps0]
  after_results
theorem W3_main_arg2 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  simp only [hostOps0_2, hostOps0_1, hostOps0]
  after_results
theorem W3_main_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  simp only [hostOps0_2, hostOps0_1, hostOps0]
  after_results
theorem W2_main_arg3 : W2 m ρ c (Proc.devRef .tc main_arg3) = m ((c : Thread nD τ).loc main_arg3) := by
  show StableHlo.after hostOps0_1 (StableHlo.after hostOps0 (W0 m ρ c)) (Proc.devRef .tc main_arg3) = _
  simp only [hostOps0_1, hostOps0]
  after_results
theorem W2_main_arg5 : W2 m ρ c (Proc.devRef .tc main_arg5) = m ((c : Thread nD τ).loc main_arg5) := by
  show StableHlo.after hostOps0_1 (StableHlo.after hostOps0 (W0 m ρ c)) (Proc.devRef .tc main_arg5) = _
  simp only [hostOps0_1, hostOps0]
  after_results

end Cert.KernelIdeal.Chain

end
-- ==== Proof.LibMatmulEntry.lean ====
/-
  A `tpu.matmul` of two rank-2 operands into the zero accumulator, read at ONE ENTRY of its result at the ideal values,
  as a plain sum over `Fin K` of the two operands' entries — for the two layouts a dense layer meets:

  * `matmul_rows_cols`: `[M, K] × [K, N] → [M, N]`, contracting the left operand's axis 1 with the right operand's
    axis 0 (rows times columns): entry `(p, q)` is `Σ_k a[p, k] · b[k, q]`;
  * `matmul_cols_rows`: `[K, N] × [M, K] → [N, M]`, contracting the left operand's axis 0 with the right operand's
    axis 1 (both operands transposed): entry `(q, p)` is `Σ_k a[k, q] · b[p, k]`.

  Each is stated for ANY dimension-number record with those six lists, whatever its name and well-formedness proof, and
  for any extents and operand formats. The contraction's own index type is re-indexed to `Fin K` through its one
  coordinate; on an axis that is not contracted an operand's index is the result index's coordinate, which is what the
  two small lemmas on `DotDims.lhsIdx` / `rhsIdx` say.
-/
import Idealize.ShloMosaic.PureOps.Ideal.Laws
import Idealize.ShloMosaic.Lib.ValueIdx

noncomputable section

open scoped BigOperators

namespace Idealize.ShloMosaic.DotDims

variable {sl sr so : Shape} (d : DotDims sl sr so)

/-- On a left axis that is kept (not batch, not contracted) the left operand's index is the result index's coordinate at
    that axis's position among the result's axes. -/
theorem lhsIdx_val_of_kept {a : Fin sl.rank} (hb : a ∉ d.lhsBatch) (hn : a ∈ d.lhsNonContracting) (j : so.Idx)
    (k : d.contr.Idx) (p : Nat) (hp : p < so.rank) (hpe : d.lhsBatch.length + d.lhsNonContracting.idxOf a = p) :
    (d.lhsIdx j k a).val = (j ⟨p, hp⟩).val := by
  subst hpe
  unfold lhsIdx
  rw [dif_neg hb, dif_pos hn]
  rfl

/-- The same for the right operand, whose kept axes come after the left operand's among the result's. -/
theorem rhsIdx_val_of_kept {a : Fin sr.rank} (hb : a ∉ d.rhsBatch) (hn : a ∈ d.rhsNonContracting) (j : so.Idx)
    (k : d.contr.Idx) (p : Nat) (hp : p < so.rank)
    (hpe : d.lhsBatch.length + d.lhsNonContracting.length + d.rhsNonContracting.idxOf a = p) :
    (d.rhsIdx j k a).val = (j ⟨p, hp⟩).val := by
  subst hpe
  unfold rhsIdx
  rw [dif_neg hb, dif_pos hn]
  rfl

end Idealize.ShloMosaic.DotDims

namespace Idealize.ShloMosaic.Ideal

open Idealize.ShloMosaic.ValueIdx

/-- Rows times columns: `[M, K] × [K, N] → [M, N]` into the zero accumulator, at entry `(p, q)`. -/
theorem matmul_rows_cols {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (a : FVec Ideal ⟨2, ![M, K]⟩ φ₁) (b : FVec Ideal ⟨2, ![K, N]⟩ φ₂)
    (p : Fin M) (q : Fin N) :
    FloatOps.matmul D prec a b (constant ⟨2, ![M, N]⟩ .f32 0x00000000#32) (ix2 p q)
      = ∑ k : Fin K, a (ix2 p k) * b (ix2 k q) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 p q) ((contrEquiv1 D K hr hs).symm k) = ix2 p k := by
    funext ax
    refine Fin.ext ?_
    match ax with
    | ⟨0, _⟩ =>
      exact D.lhsIdx_val_of_kept (a := (0 : Fin 2)) (by rw [hlb]; exact List.not_mem_nil) (by rw [hln]; exact List.mem_singleton.mpr rfl)
        _ _ 0 Nat.zero_lt_two (by rw [hlb, hln]; rfl)
    | ⟨1, _⟩ =>
      exact (D.lhsIdx_val_of_single (cl := (1 : Fin 2)) hlc _ _).trans (contrEquiv1_symm_val D K hr hs k)
  have eb : D.rhsIdx (ix2 p q) ((contrEquiv1 D K hr hs).symm k) = ix2 k q := by
    funext ax
    refine Fin.ext ?_
    match ax with
    | ⟨0, _⟩ =>
      exact (D.rhsIdx_val_of_single (cr := (0 : Fin 2)) hrc _ _).trans (contrEquiv1_symm_val D K hr hs k)
    | ⟨1, _⟩ =>
      exact D.rhsIdx_val_of_kept (a := (1 : Fin 2)) (by rw [hrb]; exact List.not_mem_nil) (by rw [hrn]; exact List.mem_singleton.mpr rfl)
        _ _ 1 Nat.one_lt_two (by rw [hlb, hln, hrn]; rfl)
  rw [ea, eb]

/-- Both operands transposed: `[K, N] × [M, K] → [N, M]` into the zero accumulator, at entry `(q, p)`. -/
theorem matmul_cols_rows {M K N : Nat} {φ₁ φ₂ : FTy} (D : DotDims ⟨2, ![K, N]⟩ ⟨2, ![M, K]⟩ ⟨2, ![N, M]⟩)
    (hlb : D.lhsBatch = []) (hln : D.lhsNonContracting = [1]) (hlc : D.lhsContracting = [0])
    (hrb : D.rhsBatch = []) (hrn : D.rhsNonContracting = [0]) (hrc : D.rhsContracting = [1])
    (prec : Option ContractPrecision) (a : FVec Ideal ⟨2, ![K, N]⟩ φ₁) (b : FVec Ideal ⟨2, ![M, K]⟩ φ₂)
    (q : Fin N) (p : Fin M) :
    FloatOps.matmul D prec a b (constant ⟨2, ![N, M]⟩ .f32 0x00000000#32) (ix2 q p)
      = ∑ k : Fin K, a (ix2 k q) * b (ix2 p k) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 q p) ((contrEquiv1 D K hr hs).symm k) = ix2 k q := by
    funext ax
    refine Fin.ext ?_
    match ax with
    | ⟨0, _⟩ =>
      exact (D.lhsIdx_val_of_single (cl := (0 : Fin 2)) hlc _ _).trans (contrEquiv1_symm_val D K hr hs k)
    | ⟨1, _⟩ =>
      exact D.lhsIdx_val_of_kept (a := (1 : Fin 2)) (by rw [hlb]; exact List.not_mem_nil) (by rw [hln]; exact List.mem_singleton.mpr rfl)
        _ _ 0 Nat.zero_lt_two (by rw [hlb, hln]; rfl)
  have eb : D.rhsIdx (ix2 q p) ((contrEquiv1 D K hr hs).symm k) = ix2 p k := by
    funext ax
    refine Fin.ext ?_
    match ax with
    | ⟨0, _⟩ =>
      exact D.rhsIdx_val_of_kept (a := (0 : Fin 2)) (by rw [hrb]; exact List.not_mem_nil) (by rw [hrn]; exact List.mem_singleton.mpr rfl)
        _ _ 1 Nat.one_lt_two (by rw [hlb, hln, hrn]; rfl)
    | ⟨1, _⟩ =>
      exact (D.rhsIdx_val_of_single (cr := (1 : Fin 2)) hrc _ _).trans (contrEquiv1_symm_val D K hr hs k)
  rw [ea, eb]

end Idealize.ShloMosaic.Ideal

end
-- ==== Proof.Region0.lean ====
/-
  The first dense stage of the two-layer graph convolution, at the ideal values: the region's grid has 20 points, and point
  `t` reads rows `5000 t … 5000 t + 4999` of the feature table `x` ([100000, 128]) and of the scale column `dv` ([100000, 1]),
  the whole weight table `w` ([128, 128]), and writes the same rows of the output.  Entry `(p, q)` of the block it writes is
  `(Σ_k x[5000 t + p, k] · w[k, q]) · dv[5000 t + p, 0]`: at the ideal values the two format changes before the product are the
  identity and the product into the zero accumulator is the plain sum over the contracted axis; the column is broadcast along
  the row.  The twenty blocks tile the output, so after the grid the output is `stage0 x w dv` entry by entry, for whatever
  contents the three input arrays have when the region is entered.

  In order: the stored value of the body at one entry (`pay0_apply`); the block indices of the four windows at every grid
  point (`idx_facts0`); each input block read at an entry as an entry of its array (`iblk0_0_apply` … `iblk0_2_apply`) and
  the array index of an entry of the output block (`emb0_3`); what a point writes back (`flushed0_eq`); the blocks cover the
  array (`mem_blk0`, `cover0`); the array after the grid (`final0`).
-/
import proofs.«111790_j60129542735_2_alg».proof.Proof.Spec
import proofs.«111790_j60129542735_2_alg».proof.Proof.Gen.KernelIdeal.Frame
import proofs.«111790_j60129542735_2_alg».proof.Proof.LibMatmulEntry
import Idealize.ShloMosaic.Lib.Pipeline.Value
import Idealize.ShloMosaic.Lib.ValueLayout
import Idealize.ShloMosaic.Lib.ValueIdx

noncomputable section

open scoped BigOperators

namespace Cert.KernelIdeal.Regions

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole-buffer access, as the constant function. -/
private theorem hz : (![0, 0] : Fin 2 → Nat) = fun _ => 0 := funext fun a => by fin_cases a <;> rfl

/-- A column `[a, 1]` broadcast to `[a, b]` reads, at `(p, c)`, the column's entry of row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The value the body stores, at entry `(p, q)`: row `p` of the first block times column `q` of the weights — the
    product into the zero accumulator is the plain sum over the contracted axis, and the two format changes are the identity on
    extended reals —, times the column's entry of row `p` (the same-shape cast is the identity, the broadcast reads the unit
    axis at `0`). -/
theorem pay0_apply (x0 : Vec Ideal S5000x128 .f32) (x1 : Vec Ideal S128x128 .f32) (x2 : Vec Ideal S5000x1 .f32)
    (p : Fin 5000) (q : Fin 128) :
    k0_pay1 x0 x1 x2 (ix2 p q) = (∑ k : Fin 128, x0 (ix2 p k) * x1 (ix2 k q)) * x2 (ix2 p (0 : Fin 1)) := by
  unfold k0_pay1
  rw [shapeCast_self]
  refine (mulf_apply _ _ (ix2 p q)).trans ?_
  rw [broadcastTo_a1_ab_apply]
  refine congrArg (· * x2 (ix2 p (0 : Fin 1))) ?_
  exact Idealize.ShloMosaic.Ideal.matmul_rows_cols dot_S5000x128_S128x128_S5000x128_1_0_0_1_n_n rfl rfl rfl rfl rfl rfl none
    (truncf .bf16 x0 bitsLt_bf16_f32) (truncf .bf16 x1 bitsLt_bf16_f32) p q

/-- The block indices at every grid point, decided over the 20 points: the row-blocked input, the scale column and the
    output are at block `(t, 0)`, the weights at block `(0, 0)`. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- A grid point is below 20. -/
private theorem lt20 (t : Fin cfg0.N) : t.val < 20 := lt_of_lt_of_eq t.isLt N_0

/-- Entry `(p, k)` of the first input's block at point `t` is entry `(5000 t + p, k)` of its array (a block's coordinate is
    the block index times the block size plus the coordinate inside the block). -/
theorem iblk0_0_apply (c : Dev nD) (t : Fin cfg0.N) (p : Fin 5000) (k : Fin 128) (h : t.val * 5000 + p.val < 100000) :
    (iblk0 (F := Ideal) V c 0 t : Vec Ideal S5000x128 .f32) (ix2 p k) = (V c main_arg0 : Cert.Gcn.Mat 100000 128) (ix2 ⟨t.val * 5000 + p.val, h⟩ k) := by
  obtain ⟨e0, e1, -⟩ := idx_facts0 t
  unfold iblk0
  rw [View.read_apply]
  show V c main_arg0 _ = V c main_arg0 _
  refine congrArg (V c main_arg0) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- The weights' block is the whole weight table at every point. -/
theorem iblk0_1_apply (c : Dev nD) (t : Fin cfg0.N) (k : Fin 128) (q : Fin 128) :
    (iblk0 (F := Ideal) V c 1 t : Vec Ideal S128x128 .f32) (ix2 k q) = (V c main_arg2 : Cert.Gcn.Mat 128 128) (ix2 k q) := by
  obtain ⟨-, -, e0, e1, -⟩ := idx_facts0 t
  unfold iblk0
  rw [View.read_apply]
  show V c main_arg2 _ = V c main_arg2 _
  refine congrArg (V c main_arg2) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- Entry `(p, 0)` of the scale column's block at point `t` is entry `(5000 t + p, 0)` of the column. -/
theorem iblk0_2_apply (c : Dev nD) (t : Fin cfg0.N) (p : Fin 5000) (h : t.val * 5000 + p.val < 100000) :
    (iblk0 (F := Ideal) V c 2 t : Vec Ideal S5000x1 .f32) (ix2 p (0 : Fin 1)) = (V c main_v15 : Cert.Gcn.Mat 100000 1) (ix2 ⟨t.val * 5000 + p.val, h⟩ (0 : Fin 1)) := by
  obtain ⟨-, -, -, -, e0, e1, -⟩ := idx_facts0 t
  unfold iblk0
  rw [View.read_apply]
  show V c main_v15 _ = V c main_v15 _
  refine congrArg (V c main_v15) (funext fun a => Fin.ext ?_)
  match a with
  | ⟨0, _⟩ => show win0_2.index t (0 : Fin 2) * 5000 + 1 * p.val = t.val * 5000 + p.val; omega
  | ⟨1, _⟩ => show win0_2.index t (1 : Fin 2) * 1 + 1 * 0 = 0; omega

/-- The array index of entry `(p, q)` of the output's block at point `t`: row `5000 t + p`, column `q`. -/
theorem emb0_3 (t : Fin cfg0.N) (p : Fin 5000) (q : Fin 128) (h : t.val * 5000 + p.val < 100000) :
    (((cfg0.win 3).blk t).view.emb (ix2 p q) : S100000x128.Idx) = ix2 ⟨t.val * 5000 + p.val, h⟩ q := by
  obtain ⟨-, -, -, -, -, -, e0, e1⟩ := idx_facts0 t
  refine funext fun a => Fin.ext ?_
  match a with
  | ⟨0, _⟩ => show win0_3.index t (0 : Fin 2) * 5000 + 1 * p.val = t.val * 5000 + p.val; omega
  | ⟨1, _⟩ => show win0_3.index t (1 : Fin 2) * 128 + 1 * q.val = q.val; omega

/-- What point `t` writes back is block `t` of the whole-table function of the entry arrays. -/
theorem flushed0_eq (c : Dev nD) (t : Fin cfg0.N) :
    (dat0 (F := Ideal) V c).flushed 3 t = ((cfg0.win 3).blk t).view.read (Elt Ideal) (Cert.Gcn.stage0 (V c main_arg0) (V c main_arg2) (V c main_v15)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  funext j
  obtain ⟨p, q, rfl⟩ : ∃ (p : Fin 5000) (q : Fin 128), j = ix2 p q := ⟨j 0, j 1, eq_ix2 j⟩
  have ht := lt20 t
  have h : t.val * 5000 + p.val < 100000 := by have := p.isLt; omega
  show k0_pay1 (iblk0 V c 0 t) (iblk0 V c 1 t) (iblk0 V c 2 t) (ix2 p q) = Cert.Gcn.stage0 (V c main_arg0) (V c main_arg2) (V c main_v15) (((cfg0.win 3).blk t).view.emb (ix2 p q))
  refine (pay0_apply _ _ _ p q).trans ?_
  refine Eq.trans ?_ ((congrArg (Cert.Gcn.stage0 (V c main_arg0) (V c main_arg2) (V c main_v15)) (emb0_3 t p q h)).trans (Cert.Gcn.stage0_apply _ _ _ _ _)).symm
  rw [iblk0_2_apply V c t p h]
  refine congrArg (· * (V c main_v15 : Cert.Gcn.Mat 100000 1) (ix2 ⟨t.val * 5000 + p.val, h⟩ (0 : Fin 1))) ?_
  refine Finset.sum_congr rfl fun k _ => ?_
  rw [iblk0_0_apply V c t p k h, iblk0_1_apply V c t k q]

/-- An index of the array is in point `t`'s block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v18).slice (win0_3.rect t)).set ↔ _
  rw [View.set_slice_whole, Rect.mem_set_unit]
  exact Iff.rfl

/-- Every index of the array is in some point's block: row `r` is in the block of point `r / 5000`. -/
theorem cover0 (i : S100000x128.Idx) : ∃ t : Fin cfg0.N, (cfg0.win 3).flush t = true ∧ i ∈ ((cfg0.win 3).blk t).view.set := by
  have hi0 : (i 0).val < 100000 := idx2_lt0 i
  have hi1 : (i 1).val < 128 := idx2_lt1 i
  obtain ⟨t, ht⟩ : ∃ t : Fin cfg0.N, t.val = (i 0).val / 5000 := ⟨⟨(i 0).val / 5000, lt_of_lt_of_eq (by omega) N_0.symm⟩, rfl⟩
  obtain ⟨-, -, -, -, -, -, e0, e1⟩ := idx_facts0 t
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- After the region's grid has run the output array is the whole-table function of the entry arrays. -/
theorem final0 (c : Dev nD) : (dat0 (F := Ideal) V c).arrAt 3 cfg0.N = Cert.Gcn.stage0 (V c main_arg0) (V c main_arg2) (V c main_v15) :=
  (dat0 V c).arrAt_eq_of_cover 3 _ (fun t _ => flushed0_eq V c t) cover0

end Cert.KernelIdeal.Regions
end
-- ==== Proof.Region1.lean ====
/-
  Region 1 of the kernel program — the second dense stage, `max (a · dv + b) 0` times `w`, rows scaled by `dv` —
  read as ONE function of the arrays the region finds when it is entered.

  The body's arithmetic at one entry of its block is the stage's entry of the loaded blocks (`pay1_apply`); point `t`
  of the grid loads rows `5000 t … 5000 t + 4999` of the table and of the scale column and the whole bias row and weight
  table, and writes back the same rows of the result (`flushed1_eq`); the twenty row blocks tile the result's hundred
  thousand rows (`cover1`), so after the grid the result array is the stage's whole table (`final1`).
-/
import proofs.«111790_j60129542735_2_alg».proof.Proof.Gen.KernelIdeal.Frame
import proofs.«111790_j60129542735_2_alg».proof.Proof.Spec
import proofs.«111790_j60129542735_2_alg».proof.Proof.LibMatmulEntry
import Idealize.ShloMosaic.Lib.Pipeline.Value
import Idealize.ShloMosaic.Lib.ValueLayout

set_option maxRecDepth 16384

noncomputable section

open scoped BigOperators

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

/-! ## The body's arithmetic at one entry -/

/-- A column `[a, 1]` broadcast along the rows to `[a, b]` reads, at `(p, c)`, the column's entry of row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's stored value at entry `(p, q)` of its block: the sum over `k` of the cut-off scaled-and-shifted entry
    `(p, k)` of the table block times the weight's entry `(k, q)`, scaled by the column's entry of row `p`. -/
theorem pay1_apply (x0 : Vec Ideal S5000x128 .f32) (x1 : Vec Ideal S5000x1 .f32) (x2 : Vec Ideal S1x128 .f32)
    (x3 : Vec Ideal S128x64 .f32) (x4 : Vec Ideal S5000x1 .f32) (p : Fin 5000) (q : Fin 64) :
    k1_pay1 x0 x1 x2 x3 x4 (ix2 p q)
      = (∑ k : Fin 128, max (x0 (ix2 p k) * x1 (ix2 p (0 : Fin 1)) + x2 (ix2 (0 : Fin 1) k)) 0 * x3 (ix2 k q))
          * x4 (ix2 p (0 : Fin 1)) := by
  unfold k1_pay1
  refine (mulf_apply _ _ _).trans ?_
  refine congrArg₂ (· * ·) ?_ ?_
  · refine (Ideal.matmul_rows_cols dot_S5000x128_S128x64_S5000x64_1_0_0_1_n_n rfl rfl rfl rfl rfl rfl none _ _ p q).trans ?_
    refine Finset.sum_congr rfl fun k _ => ?_
    refine congrArg₂ (· * ·) ?_ rfl
    refine (truncf_apply (φ := .f32) (ψ := .bf16) _ bitsLt_bf16_f32 _).trans ?_
    refine (maximumf_apply _ _ _).trans ?_
    refine congrArg₂ max ?_ ?_
    · refine (addf_apply _ _ _).trans ?_
      refine congrArg₂ (· + ·) ?_ ?_
      · refine (mulf_apply _ _ _).trans ?_
        refine congrArg₂ (· * ·) ?_ ?_
        · exact congrFun (shapeCast_self x0 _) _
        · refine (broadcastTo_a1_ab_apply _ _ p k).trans ?_
          exact congrFun (shapeCast_self x1 _) _
      · refine (broadcastTo_1b_ab_apply _ _ p k).trans ?_
        exact congrFun (shapeCast_self x2 _) _
    · exact Ideal.ofBits_zero_f32
  · refine (broadcastTo_a1_ab_apply _ _ p q).trans ?_
    exact congrFun (shapeCast_self x4 _) _

/-! ## Where each window's block sits at a point of the grid -/

variable (V : (c : Dev nD) → (b : Ref sig .tc) → Buf (Elt Ideal) ((c : Thread nD τ).loc b))

private theorem hz1 : (![0, 0] : Fin 2 → Nat) = fun _ => 0 := funext fun a => by fin_cases a <;> rfl

/-- The printed index maps, decided over the grid: the table, the scale column and the result move one row block per
    point; the bias row and the weight table stay at their one block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- A point of the grid is below twenty. -/
private theorem pt_lt (t : Fin cfg1.N) : t.val < 20 := lt_of_lt_of_eq t.isLt N_1

/-- Row `p` of point `t`'s row block is a row of the table. -/
private theorem row_lt (t : Fin cfg1.N) (p : Fin 5000) : t.val * 5000 + p.val < 100000 := by
  have := pt_lt t; have := p.isLt; omega

/-- The table's block at point `t` is its rows `5000 t …`. -/
theorem iblk1_0_apply (c : Dev nD) (t : Fin cfg1.N) (p : Fin 5000) (k : Fin 128) :
    iblk1 V c 0 t (ix2 p k) = V c main_v28 (ix2 (⟨t.val * 5000 + p.val, row_lt t p⟩ : Fin 100000) k) := by
  show V c main_v28 (((cfg1.win 0).blk t).view.emb (ix2 p k)) = _
  refine congrArg (V c main_v28) ?_
  obtain ⟨e0, e1, -⟩ := idx_facts1 t
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

/-- The scale column's block at point `t` is its rows `5000 t …`. -/
theorem iblk1_1_apply (c : Dev nD) (t : Fin cfg1.N) (p : Fin 5000) :
    iblk1 V c 1 t (ix2 p (0 : Fin 1)) = V c main_v15 (ix2 (⟨t.val * 5000 + p.val, row_lt t p⟩ : Fin 100000) (0 : Fin 1)) := by
  show V c main_v15 (((cfg1.win 1).blk t).view.emb (ix2 p (0 : Fin 1))) = _
  refine congrArg (V c main_v15) ?_
  obtain ⟨-, -, e0, e1, -⟩ := idx_facts1 t
  funext a; apply Fin.ext
  match a with
  | ⟨0, _⟩ => show win1_1.index t (0 : Fin 2) * 5000 + 1 * p.val = t.val * 5000 + p.val; omega
  | ⟨1, _⟩ => show win1_1.index t (1 : Fin 2) * 1 + 1 * 0 = 0; omega

/-- The bias row's block at every point is the whole row. -/
theorem iblk1_2_apply (c : Dev nD) (t : Fin cfg1.N) (k : Fin 128) :
    iblk1 V c 2 t (ix2 (0 : Fin 1) k) = V c main_v16 (ix2 (0 : Fin 1) k) := by
  show V c main_v16 (((cfg1.win 2).blk t).view.emb (ix2 (0 : Fin 1) k)) = _
  refine congrArg (V c main_v16) ?_
  obtain ⟨-, -, -, -, e0, e1, -⟩ := idx_facts1 t
  funext a; apply Fin.ext
  match a with
  | ⟨0, _⟩ => show win1_2.index t (0 : Fin 2) * 1 + 1 * 0 = 0; omega
  | ⟨1, _⟩ => show win1_2.index t (1 : Fin 2) * 128 + 1 * k.val = k.val; omega

/-- The weight table's block at every point is the whole table. -/
theorem iblk1_3_apply (c : Dev nD) (t : Fin cfg1.N) (k : Fin 128) (q : Fin 64) :
    iblk1 V c 3 t (ix2 k q) = V c main_arg4 (ix2 k q) := by
  show V c main_arg4 (((cfg1.win 3).blk t).view.emb (ix2 k q)) = _
  refine congrArg (V c main_arg4) ?_
  obtain ⟨-, -, -, -, -, -, e0, e1, -⟩ := idx_facts1 t
  funext a; apply Fin.ext
  match a with
  | ⟨0, _⟩ => show win1_3.index t (0 : Fin 2) * 128 + 1 * k.val = k.val; omega
  | ⟨1, _⟩ => show win1_3.index t (1 : Fin 2) * 64 + 1 * q.val = q.val; omega

/-- Entry `(p, q)` of the result's block at point `t` is entry `(5000 t + p, q)` of the result. -/
theorem emb1_4 (t : Fin cfg1.N) (p : Fin 5000) (q : Fin 64) :
    ((cfg1.win 4).blk t).view.emb (ix2 p q) = ix2 (⟨t.val * 5000 + p.val, row_lt t p⟩ : Fin 100000) q := by
  obtain ⟨-, -, -, -, -, -, -, -, e0, e1⟩ := idx_facts1 t
  funext a; apply Fin.ext
  match a with
  | ⟨0, _⟩ => show win1_4.index t (0 : Fin 2) * 5000 + 1 * p.val = t.val * 5000 + p.val; omega
  | ⟨1, _⟩ => show win1_4.index t (1 : Fin 2) * 64 + 1 * q.val = q.val; omega

/-! ## What a point writes back, and the array after the grid -/

/-- What point `t` writes back is block `t` of the stage's table of the arrays the region finds at entry. -/
theorem flushed1_eq (c : Dev nD) (t : Fin cfg1.N) :
    (dat1 (F := Ideal) V c).flushed 4 t
      = ((cfg1.win 4).blk t).view.read (Elt Ideal)
          (Cert.Gcn.stage1 (V c main_v28) (V c main_v15) (V c main_v16) (V c main_arg4)) := by
  show (cfg1.win 4).cut (grid1.coords t) ((dat1 V c).after 4 t) = _
  rw [after1_4]
  unfold out1_4
  rw [View.canon_unit_zero hz1]
  simp only [View.ld_unit_zero (S := S5000x128) hz1, View.ld_unit_zero (S := S5000x1) hz1,
    View.ld_unit_zero (S := S1x128) hz1, View.ld_unit_zero (S := S128x64) hz1]
  funext j
  obtain ⟨p, q, rfl⟩ : ∃ (p : Fin 5000) (q : Fin 64), j = ix2 p q := ⟨j 0, j 1, eq_ix2 j⟩
  show k1_pay1 (iblk1 V c 0 t) (iblk1 V c 1 t) (iblk1 V c 2 t) (iblk1 V c 3 t) (iblk1 V c 1 t) (ix2 p q)
      = Cert.Gcn.stage1 (V c main_v28) (V c main_v15) (V c main_v16) (V c main_arg4)
          (((cfg1.win 4).blk t).view.emb (ix2 p q))
  rw [emb1_4 t p q, Cert.Gcn.stage1_apply]
  refine (pay1_apply (iblk1 V c 0 t) (iblk1 V c 1 t) (iblk1 V c 2 t) (iblk1 V c 3 t) (iblk1 V c 1 t) p q).trans ?_
  rw [iblk1_1_apply V c t p]
  refine congrArg₂ (· * ·) (Finset.sum_congr rfl fun k _ => ?_) rfl
  rw [iblk1_0_apply V c t p k, iblk1_2_apply V c t k, iblk1_3_apply V c t k q]

/-- An entry of the result is in point `t`'s block iff each coordinate is in the block's range on its axis. -/
theorem mem_blk1 (t : Fin cfg1.N) (i : S100000x64.Idx) :
    i ∈ ((cfg1.win 4).blk t).view.set
      ↔ ∀ a : Fin 2, win1_4.index t a * S5000x64.size a ≤ (i a).val
          ∧ (i a).val < win1_4.index t a * S5000x64.size a + S5000x64.size a := by
  show i ∈ ((View.whole main_v29).slice (win1_4.rect t)).set ↔ _
  rw [View.set_slice_whole, Rect.mem_set_unit]
  exact Iff.rfl

/-- The twenty row blocks tile the result: row `r` is in the block of point `r / 5000`, whatever the column. -/
theorem cover1 (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have ht : (i 0).val / 5000 < cfg1.N := lt_of_lt_of_eq (by omega : (i 0).val / 5000 < 20) N_1.symm
  refine ⟨⟨(i 0).val / 5000, ht⟩, flush1_4 _, ?_⟩
  rw [mem_blk1]
  obtain ⟨-, -, -, -, -, -, -, -, e0, e1⟩ := idx_facts1 ⟨(i 0).val / 5000, ht⟩
  have e0' : win1_4.index ⟨(i 0).val / 5000, ht⟩ (0 : Fin 2) = (i 0).val / 5000 := e0
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    omega
  | ⟨1, _⟩ =>
    show win1_4.index ⟨(i 0).val / 5000, ht⟩ (1 : Fin 2) * 64 ≤ (i 1).val
      ∧ (i 1).val < win1_4.index ⟨(i 0).val / 5000, ht⟩ (1 : Fin 2) * 64 + 64
    omega

/-- THE RESULT ARRAY after the grid has run: the stage's whole table of the arrays the region found at entry. -/
theorem final1 (c : Dev nD) :
    (dat1 (F := Ideal) V c).arrAt 4 cfg1.N
      = Cert.Gcn.stage1 (V c main_v28) (V c main_v15) (V c main_v16) (V c main_arg4) :=
  (dat1 V c).arrAt_eq_of_cover 4 _ (fun t _ => flushed1_eq V c t) cover1

end Cert.KernelIdeal.Regions

end
-- ==== Proof.Region2.lean ====
/-
  The third dense stage of the two-layer graph convolution, at the ideal values: the region's grid has 20 points, and point
  `t` reads rows `5000 t … 5000 t + 4999` of the summed table `a` ([100000, 64]) and of the scale column `dv` ([100000, 1]),
  the whole bias row `b` ([1, 64]), and writes the same rows of the output.  Entry `(p, q)` of the block it writes is
  `a[5000 t + p, q] · dv[5000 t + p, 0] + b[0, q]`: the product with the column broadcast along the row, plus the row broadcast
  down the column.  The twenty blocks tile the output, so after the grid the output is `stage2 a dv b` entry by entry, for
  whatever contents the three input arrays have when the region is entered.

  In order: the stored value of the body at one entry (`pay2_apply`); the block indices of the four windows at every grid
  point (`idx_facts2`); each input block read at an entry as an entry of its array (`iblk2_0_apply` … `iblk2_2_apply`) and
  the array index of an entry of the output block (`emb2_3`); what a point writes back (`flushed2_eq`); the blocks cover the
  array (`mem_blk2`, `cover2`); the array after the grid (`final2`).
-/
import proofs.«111790_j60129542735_2_alg».proof.Proof.Spec
import proofs.«111790_j60129542735_2_alg».proof.Proof.Gen.KernelIdeal.Frame
import Idealize.ShloMosaic.Lib.Pipeline.Value
import Idealize.ShloMosaic.Lib.ValueLayout
import Idealize.ShloMosaic.Lib.ValueIdx

noncomputable section

open scoped BigOperators

namespace Cert.KernelIdeal.Regions

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole-buffer access, as the constant function. -/
private theorem hz : (![0, 0] : Fin 2 → Nat) = fun _ => 0 := funext fun a => by fin_cases a <;> rfl

/-- A column `[a, 1]` broadcast to `[a, b]` reads, at `(p, c)`, the column's entry of row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The value the body stores, at entry `(p, q)`: the product of the first block's entry with the column's entry of row `p`,
    plus the row's entry of column `q` (the same-shape casts are the identity; the two broadcasts read the unit axis at `0`). -/
theorem pay2_apply (x0 : Vec Ideal S5000x64 .f32) (x1 : Vec Ideal S5000x1 .f32) (x2 : Vec Ideal S1x64 .f32)
    (p : Fin 5000) (q : Fin 64) :
    k2_pay1 x0 x1 x2 (ix2 p q) = x0 (ix2 p q) * x1 (ix2 p (0 : Fin 1)) + x2 (ix2 (0 : Fin 1) q) := by
  unfold k2_pay1
  rw [shapeCast_self, shapeCast_self, shapeCast_self]
  show x0 (ix2 p q) * broadcastTo S5000x64 x1 _ (ix2 p q) + broadcastTo S5000x64 x2 _ (ix2 p q) = _
  rw [broadcastTo_a1_ab_apply, broadcastTo_1b_ab_apply]

/-- The block indices at every grid point, decided over the 20 points: the two row-blocked inputs and the output are at
    block `(t, 0)`, the bias row at block `(0, 0)`. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- A grid point is below 20. -/
private theorem lt20 (t : Fin cfg2.N) : t.val < 20 := lt_of_lt_of_eq t.isLt N_2

/-- Entry `(p, q)` of the first input's block at point `t` is entry `(5000 t + p, q)` of its array (a block's coordinate is
    the block index times the block size plus the coordinate inside the block). -/
theorem iblk2_0_apply (c : Dev nD) (t : Fin cfg2.N) (p : Fin 5000) (q : Fin 64) (h : t.val * 5000 + p.val < 100000) :
    (iblk2 (F := Ideal) V c 0 t : Vec Ideal S5000x64 .f32) (ix2 p q) = (V c main_v39 : Cert.Gcn.Mat 100000 64) (ix2 ⟨t.val * 5000 + p.val, h⟩ q) := by
  obtain ⟨e0, e1, -⟩ := idx_facts2 t
  unfold iblk2
  rw [View.read_apply]
  show V c main_v39 _ = V c main_v39 _
  refine congrArg (V c main_v39) (funext fun a => Fin.ext ?_)
  match a with
  | ⟨0, _⟩ => show win2_0.index t (0 : Fin 2) * 5000 + 1 * p.val = t.val * 5000 + p.val; omega
  | ⟨1, _⟩ => show win2_0.index t (1 : Fin 2) * 64 + 1 * q.val = q.val; omega

/-- Entry `(p, 0)` of the scale column's block at point `t` is entry `(5000 t + p, 0)` of the column. -/
theorem iblk2_1_apply (c : Dev nD) (t : Fin cfg2.N) (p : Fin 5000) (h : t.val * 5000 + p.val < 100000) :
    (iblk2 (F := Ideal) V c 1 t : Vec Ideal S5000x1 .f32) (ix2 p (0 : Fin 1)) = (V c main_v15 : Cert.Gcn.Mat 100000 1) (ix2 ⟨t.val * 5000 + p.val, h⟩ (0 : Fin 1)) := by
  obtain ⟨-, -, e0, e1, -⟩ := idx_facts2 t
  unfold iblk2
  rw [View.read_apply]
  show V c main_v15 _ = V c main_v15 _
  refine congrArg (V c main_v15) (funext fun a => Fin.ext ?_)
  match a with
  | ⟨0, _⟩ => show win2_1.index t (0 : Fin 2) * 5000 + 1 * p.val = t.val * 5000 + p.val; omega
  | ⟨1, _⟩ => show win2_1.index t (1 : Fin 2) * 1 + 1 * 0 = 0; omega

/-- The bias row's block is the row itself at every point. -/
theorem iblk2_2_apply (c : Dev nD) (t : Fin cfg2.N) (q : Fin 64) :
    (iblk2 (F := Ideal) V c 2 t : Vec Ideal S1x64 .f32) (ix2 (0 : Fin 1) q) = (V c main_v17 : Cert.Gcn.Mat 1 64) (ix2 (0 : Fin 1) q) := by
  obtain ⟨-, -, -, -, e0, e1, -⟩ := idx_facts2 t
  unfold iblk2
  rw [View.read_apply]
  show V c main_v17 _ = V c main_v17 _
  refine congrArg (V c main_v17) (funext fun a => Fin.ext ?_)
  match a with
  | ⟨0, _⟩ => show win2_2.index t (0 : Fin 2) * 1 + 1 * 0 = 0; omega
  | ⟨1, _⟩ => show win2_2.index t (1 : Fin 2) * 64 + 1 * q.val = q.val; omega

/-- The array index of entry `(p, q)` of the output's block at point `t`: row `5000 t + p`, column `q`. -/
theorem emb2_3 (t : Fin cfg2.N) (p : Fin 5000) (q : Fin 64) (h : t.val * 5000 + p.val < 100000) :
    (((cfg2.win 3).blk t).view.emb (ix2 p q) : S100000x64.Idx) = ix2 ⟨t.val * 5000 + p.val, h⟩ q := by
  obtain ⟨-, -, -, -, -, -, e0, e1⟩ := idx_facts2 t
  refine funext fun a => Fin.ext ?_
  match a with
  | ⟨0, _⟩ => show win2_3.index t (0 : Fin 2) * 5000 + 1 * p.val = t.val * 5000 + p.val; omega
  | ⟨1, _⟩ => show win2_3.index t (1 : Fin 2) * 64 + 1 * q.val = q.val; omega

/-- What point `t` writes back is block `t` of the whole-table function of the entry arrays. -/
theorem flushed2_eq (c : Dev nD) (t : Fin cfg2.N) :
    (dat2 (F := Ideal) V c).flushed 3 t = ((cfg2.win 3).blk t).view.read (Elt Ideal) (Cert.Gcn.stage2 (V c main_v39) (V c main_v15) (V c main_v17)) := by
  show (cfg2.win 3).cut (grid2.coords t) ((dat2 V c).after 3 t) = _
  rw [after2_3]
  unfold out2_3
  rw [View.canon_unit_zero hz]
  simp only [View.ld_unit_zero (S := S5000x64) hz, View.ld_unit_zero (S := S5000x1) hz, View.ld_unit_zero (S := S1x64) hz]
  funext j
  obtain ⟨p, q, rfl⟩ : ∃ (p : Fin 5000) (q : Fin 64), j = ix2 p q := ⟨j 0, j 1, eq_ix2 j⟩
  have ht := lt20 t
  have h : t.val * 5000 + p.val < 100000 := by have := p.isLt; omega
  show k2_pay1 (iblk2 V c 0 t) (iblk2 V c 1 t) (iblk2 V c 2 t) (ix2 p q) = Cert.Gcn.stage2 (V c main_v39) (V c main_v15) (V c main_v17) (((cfg2.win 3).blk t).view.emb (ix2 p q))
  refine (pay2_apply _ _ _ p q).trans ?_
  refine Eq.trans ?_ ((congrArg (Cert.Gcn.stage2 (V c main_v39) (V c main_v15) (V c main_v17)) (emb2_3 t p q h)).trans (Cert.Gcn.stage2_apply _ _ _ _ _)).symm
  rw [iblk2_0_apply V c t p q h, iblk2_1_apply V c t p h, iblk2_2_apply V c t q]

/-- An index of the array is in point `t`'s block iff each coordinate is in the block's range on its axis. -/
theorem mem_blk2 (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v40).slice (win2_3.rect t)).set ↔ _
  rw [View.set_slice_whole, Rect.mem_set_unit]
  exact Iff.rfl

/-- Every index of the array is in some point's block: row `r` is in the block of point `r / 5000`. -/
theorem cover2 (i : S100000x64.Idx) : ∃ t : Fin cfg2.N, (cfg2.win 3).flush t = true ∧ i ∈ ((cfg2.win 3).blk t).view.set := by
  have hi0 : (i 0).val < 100000 := idx2_lt0 i
  have hi1 : (i 1).val < 64 := idx2_lt1 i
  obtain ⟨t, ht⟩ : ∃ t : Fin cfg2.N, t.val = (i 0).val / 5000 := ⟨⟨(i 0).val / 5000, lt_of_lt_of_eq (by omega) N_2.symm⟩, rfl⟩
  obtain ⟨-, -, -, -, -, -, e0, e1⟩ := idx_facts2 t
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- After the region's grid has run the output array is the whole-table function of the entry arrays. -/
theorem final2 (c : Dev nD) : (dat2 (F := Ideal) V c).arrAt 3 cfg2.N = Cert.Gcn.stage2 (V c main_v39) (V c main_v15) (V c main_v17) :=
  (dat2 V c).arrAt_eq_of_cover 3 _ (fun t _ => flushed2_eq V c t) cover2

end Cert.KernelIdeal.Regions
end
-- ==== Proof.KValue.lean ====
/-
  The kernel program's result, read at an entry, as a function of the argument arrays: Spec.lean's `kerOut`.

  Read backwards from the result buffer.  The third dense stage leaves `a · dv + b` of what it found; what it found is
  the aggregation of the second stage's table, the scale column and the second bias row; the second stage leaves
  `max (a · dv + b) 0` times the second weight table, rows scaled, of the aggregation of the first stage's table; the first
  stage leaves the features times the first weight table, rows scaled.  The edge lists, the scale and the bias rows are
  written before the first stage and by no later segment, so each boundary finds them as the first stage's entry did.
-/
import proofs.«111790_j60129542735_2_alg».proof.Proof.Gen.KernelIdeal.Frame
import proofs.«111790_j60129542735_2_alg».proof.Proof.RefRead
import proofs.«111790_j60129542735_2_alg».proof.Proof.Spec
import proofs.«111790_j60129542735_2_alg».proof.Proof.KHost
import proofs.«111790_j60129542735_2_alg».proof.Proof.KBase
import proofs.«111790_j60129542735_2_alg».proof.Proof.Region0
import proofs.«111790_j60129542735_2_alg».proof.Proof.Region1
import proofs.«111790_j60129542735_2_alg».proof.Proof.Region2
import Idealize.ShloMosaic.Lib.StableHlo.Run

set_option maxRecDepth 16384

noncomputable section

open scoped BigOperators

namespace Cert.KernelIdeal.Chain

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-! ## No later segment writes the edge lists, the scale, the bias rows or the second weight table -/

theorem W4_main_v5 : W4 m ρ c (Proc.devRef .tc main_v5) = W3 m ρ c (Proc.devRef .tc main_v5) := W4_of_ne m ρ c main_v5 (by decide)
theorem W4_main_v6 : W4 m ρ c (Proc.devRef .tc main_v6) = W3 m ρ c (Proc.devRef .tc main_v6) := W4_of_ne m ρ c main_v6 (by decide)
theorem W4_main_v15 : W4 m ρ c (Proc.devRef .tc main_v15) = W3 m ρ c (Proc.devRef .tc main_v15) :=
  (W4_arr m ρ c 2).trans (((dat0 (V3 m ρ) c).arrAt_in 2 rfl _).trans (A_eq0 (V3 m ρ) c 2))
theorem W4_main_v16 : W4 m ρ c (Proc.devRef .tc main_v16) = W3 m ρ c (Proc.devRef .tc main_v16) := W4_of_ne m ρ c main_v16 (by decide)
theorem W4_main_v17 : W4 m ρ c (Proc.devRef .tc main_v17) = W3 m ρ c (Proc.devRef .tc main_v17) := W4_of_ne m ρ c main_v17 (by decide)
theorem W4_main_arg4 : W4 m ρ c (Proc.devRef .tc main_arg4) = W3 m ρ c (Proc.devRef .tc main_arg4) := W4_of_ne m ρ c main_arg4 (by decide)
theorem W5_main_v5 : W5 m ρ c (Proc.devRef .tc main_v5) = W4 m ρ c (Proc.devRef .tc main_v5) := by
  show StableHlo.after hostOps1 (W4 m ρ c) (Proc.devRef .tc main_v5) = _
  simp only [hostOps1]; after_results
theorem W5_main_v6 : W5 m ρ c (Proc.devRef .tc main_v6) = W4 m ρ c (Proc.devRef .tc main_v6) := by
  show StableHlo.after hostOps1 (W4 m ρ c) (Proc.devRef .tc main_v6) = _
  simp only [hostOps1]; after_results
theorem W5_main_v15 : W5 m ρ c (Proc.devRef .tc main_v15) = W4 m ρ c (Proc.devRef .tc main_v15) := by
  show StableHlo.after hostOps1 (W4 m ρ c) (Proc.devRef .tc main_v15) = _
  simp only [hostOps1]; after_results
theorem W5_main_v16 : W5 m ρ c (Proc.devRef .tc main_v16) = W4 m ρ c (Proc.devRef .tc main_v16) := by
  show StableHlo.after hostOps1 (W4 m ρ c) (Proc.devRef .tc main_v16) = _
  simp only [hostOps1]; after_results
theorem W5_main_v17 : W5 m ρ c (Proc.devRef .tc main_v17) = W4 m ρ c (Proc.devRef .tc main_v17) := by
  show StableHlo.after hostOps1 (W4 m ρ c) (Proc.devRef .tc main_v17) = _
  simp only [hostOps1]; after_results
theorem W5_main_arg4 : W5 m ρ c (Proc.devRef .tc main_arg4) = W4 m ρ c (Proc.devRef .tc main_arg4) := by
  show StableHlo.after hostOps1 (W4 m ρ c) (Proc.devRef .tc main_arg4) = _
  simp only [hostOps1]; after_results
theorem W6_main_v5 : W6 m ρ c (Proc.devRef .tc main_v5) = W5 m ρ c (Proc.devRef .tc main_v5) := W6_of_ne m ρ c main_v5 (by decide)
theorem W6_main_v6 : W6 m ρ c (Proc.devRef .tc main_v6) = W5 m ρ c (Proc.devRef .tc main_v6) := W6_of_ne m ρ c main_v6 (by decide)
theorem W6_main_v15 : W6 m ρ c (Proc.devRef .tc main_v15) = W5 m ρ c (Proc.devRef .tc main_v15) :=
  (W6_arr m ρ c 1).trans (((dat1 (V5 m ρ) c).arrAt_in 1 rfl _).trans (A_eq1 (V5 m ρ) c 1))
theorem W6_main_v17 : W6 m ρ c (Proc.devRef .tc main_v17) = W5 m ρ c (Proc.devRef .tc main_v17) := W6_of_ne m ρ c main_v17 (by decide)
theorem W7_main_v15 : W7 m ρ c (Proc.devRef .tc main_v15) = W6 m ρ c (Proc.devRef .tc main_v15) := by
  show StableHlo.after hostOps2 (W6 m ρ c) (Proc.devRef .tc main_v15) = _
  simp only [hostOps2]; after_results
theorem W7_main_v17 : W7 m ρ c (Proc.devRef .tc main_v17) = W6 m ρ c (Proc.devRef .tc main_v17) := by
  show StableHlo.after hostOps2 (W6 m ρ c) (Proc.devRef .tc main_v17) = _
  simp only [hostOps2]; after_results

/-! ## The values the stages read -/

theorem src4 : (W4 m ρ c (Proc.devRef .tc main_v5) : S1700000.Idx → BitVec 32) = (Cert.ReferenceIdeal.ReadP.val_main_v6 (F := Ideal) (m ((c : Thread nD τ).loc main_arg1))) :=
  (W4_main_v5 m ρ c).trans (W3_main_v5 m ρ c)
theorem dst4 : (W4 m ρ c (Proc.devRef .tc main_v6) : S1700000.Idx → BitVec 32) = (Cert.ReferenceIdeal.ReadP.val_main_v7 (F := Ideal) (m ((c : Thread nD τ).loc main_arg1))) :=
  (W4_main_v6 m ρ c).trans (W3_main_v6 m ρ c)
theorem src6 : (W6 m ρ c (Proc.devRef .tc main_v5) : S1700000.Idx → BitVec 32) = (Cert.ReferenceIdeal.ReadP.val_main_v6 (F := Ideal) (m ((c : Thread nD τ).loc main_arg1))) :=
  (W6_main_v5 m ρ c).trans ((W5_main_v5 m ρ c).trans (src4 m ρ c))
theorem dst6 : (W6 m ρ c (Proc.devRef .tc main_v6) : S1700000.Idx → BitVec 32) = (Cert.ReferenceIdeal.ReadP.val_main_v7 (F := Ideal) (m ((c : Thread nD τ).loc main_arg1))) :=
  (W6_main_v6 m ρ c).trans ((W5_main_v6 m ρ c).trans (dst4 m ρ c))

/-- The scale column the first stage finds. -/
theorem scale3 (r : Fin 100000) (u : Fin 1) :
    (W3 m ρ c (Proc.devRef .tc main_v15) : S100000x1.Idx → EReal) (ix2 r u) = (Cert.ReferenceIdeal.ReadP.val_main_v15 (F := Ideal) (m ((c : Thread nD τ).loc main_arg1))) (ix1 r) :=
  (col_v15 (W2 m ρ c) r u).trans (congrFun (W2_main_v14 m ρ c) (ix1 r))
/-- The scale column the second stage finds. -/
theorem scale5 (r : Fin 100000) (u : Fin 1) :
    (W5 m ρ c (Proc.devRef .tc main_v15) : S100000x1.Idx → EReal) (ix2 r u) = (Cert.ReferenceIdeal.ReadP.val_main_v15 (F := Ideal) (m ((c : Thread nD τ).loc main_arg1))) (ix1 r) :=
  (congrFun ((W5_main_v15 m ρ c).trans (W4_main_v15 m ρ c)) (ix2 r u)).trans (scale3 m ρ c r u)
/-- The scale column the third stage finds. -/
theorem scale7 (r : Fin 100000) (u : Fin 1) :
    (W7 m ρ c (Proc.devRef .tc main_v15) : S100000x1.Idx → EReal) (ix2 r u) = (Cert.ReferenceIdeal.ReadP.val_main_v15 (F := Ideal) (m ((c : Thread nD τ).loc main_arg1))) (ix1 r) :=
  (congrFun ((W7_main_v15 m ρ c).trans (W6_main_v15 m ρ c)) (ix2 r u)).trans (scale5 m ρ c r u)

/-- The first bias row, as the second stage finds it. -/
theorem bias5 (u : Fin 1) (k : Fin 128) :
    (W5 m ρ c (Proc.devRef .tc main_v16) : S1x128.Idx → EReal) (ix2 u k)
      = (m ((c : Thread nD τ).loc main_arg3) : S128.Idx → EReal) (ix1 k) :=
  (congrFun ((W5_main_v16 m ρ c).trans (W4_main_v16 m ρ c)) (ix2 u k)).trans
    ((row_v16 (W2 m ρ c) u k).trans (congrFun (W2_main_arg3 m ρ c) (ix1 k)))
/-- The second bias row, as the third stage finds it. -/
theorem bias7 (u : Fin 1) (j : Fin 64) :
    (W7 m ρ c (Proc.devRef .tc main_v17) : S1x64.Idx → EReal) (ix2 u j)
      = (m ((c : Thread nD τ).loc main_arg5) : S64.Idx → EReal) (ix1 j) :=
  (congrFun ((W7_main_v17 m ρ c).trans ((W6_main_v17 m ρ c).trans ((W5_main_v17 m ρ c).trans (W4_main_v17 m ρ c)))) (ix2 u j)).trans
    ((row_v17 (W2 m ρ c) u j).trans (congrFun (W2_main_arg5 m ρ c) (ix1 j)))
/-- The second weight table, as the second stage finds it. -/
theorem weights5 : W5 m ρ c (Proc.devRef .tc main_arg4) = m ((c : Thread nD τ).loc main_arg4) :=
  (W5_main_arg4 m ρ c).trans ((W4_main_arg4 m ρ c).trans (W3_main_arg4 m ρ c))

/-! ## The tables, stage by stage -/

/-- What the first dense stage leaves: the features times the first weight table, rows scaled. -/
theorem table18 (r : Fin 100000) (k : Fin 128) :
    (W4 m ρ c (Proc.devRef .tc main_v18) : S100000x128.Idx → EReal) (ix2 r k)
      = Cert.Gcn.kerP0 (Cert.ReferenceIdeal.ReadP.val_main_v15 (F := Ideal) (m ((c : Thread nD τ).loc main_arg1))) (m ((c : Thread nD τ).loc main_arg0)) (m ((c : Thread nD τ).loc main_arg2)) r k := by
  have h : W4 m ρ c (Proc.devRef .tc main_v18)
      = Cert.Gcn.stage0 (V3 m ρ c main_arg0) (V3 m ρ c main_arg2) (V3 m ρ c main_v15) :=
    (W4_arr m ρ c 3).trans (Cert.KernelIdeal.Regions.final0 (V3 m ρ) c)
  refine (congrFun h (ix2 r k)).trans ?_
  rw [Cert.Gcn.stage0_apply]
  unfold Cert.Gcn.kerP0
  refine congrArg₂ (· * ·) (Finset.sum_congr rfl fun a _ => ?_) (scale3 m ρ c r 0)
  exact congrArg₂ (· * ·) (congrFun (W3_main_arg0 m ρ c) (ix2 r a)) (congrFun (W3_main_arg2 m ρ c) (ix2 a k))

/-- What the second dense stage finds: the aggregation of the first stage's table. -/
theorem table28 (r : Fin 100000) (k : Fin 128) :
    (W5 m ρ c (Proc.devRef .tc main_v28) : S100000x128.Idx → EReal) (ix2 r k)
      = Cert.Gcn.agg (Cert.ReferenceIdeal.ReadP.val_main_v6 (F := Ideal) (m ((c : Thread nD τ).loc main_arg1))) (Cert.ReferenceIdeal.ReadP.val_main_v7 (F := Ideal) (m ((c : Thread nD τ).loc main_arg1))) (Cert.Gcn.kerP0 (Cert.ReferenceIdeal.ReadP.val_main_v15 (F := Ideal) (m ((c : Thread nD τ).loc main_arg1))) (m ((c : Thread nD τ).loc main_arg0)) (m ((c : Thread nD τ).loc main_arg2))) r k := by
  refine (agg_v28 (W4 m ρ c) r k).trans ?_
  rw [src4 m ρ c, dst4 m ρ c]
  exact congrArg (fun y => Cert.Gcn.agg (Cert.ReferenceIdeal.ReadP.val_main_v6 (F := Ideal) (m ((c : Thread nD τ).loc main_arg1))) (Cert.ReferenceIdeal.ReadP.val_main_v7 (F := Ideal) (m ((c : Thread nD τ).loc main_arg1))) y r k) (funext fun a => funext fun b => table18 m ρ c a b)

/-- What the second dense stage leaves. -/
theorem table29 (r : Fin 100000) (j : Fin 64) :
    (W6 m ρ c (Proc.devRef .tc main_v29) : S100000x64.Idx → EReal) (ix2 r j)
      = Cert.Gcn.kerP1 (Cert.ReferenceIdeal.ReadP.val_main_v6 (F := Ideal) (m ((c : Thread nD τ).loc main_arg1))) (Cert.ReferenceIdeal.ReadP.val_main_v7 (F := Ideal) (m ((c : Thread nD τ).loc main_arg1))) (Cert.ReferenceIdeal.ReadP.val_main_v15 (F := Ideal) (m ((c : Thread nD τ).loc main_arg1))) (m ((c : Thread nD τ).loc main_arg0)) (m ((c : Thread nD τ).loc main_arg2))
          (m ((c : Thread nD τ).loc main_arg3)) (m ((c : Thread nD τ).loc main_arg4)) r j := by
  have h : W6 m ρ c (Proc.devRef .tc main_v29)
      = Cert.Gcn.stage1 (V5 m ρ c main_v28) (V5 m ρ c main_v15) (V5 m ρ c main_v16) (V5 m ρ c main_arg4) :=
    (W6_arr m ρ c 4).trans (Cert.KernelIdeal.Regions.final1 (V5 m ρ) c)
  refine (congrFun h (ix2 r j)).trans ?_
  rw [Cert.Gcn.stage1_apply]
  unfold Cert.Gcn.kerP1 Cert.Gcn.kerH
  refine congrArg₂ (· * ·) (Finset.sum_congr rfl fun a _ => ?_) (scale5 m ρ c r 0)
  refine congrArg₂ (· * ·) ?_ (congrFun (weights5 m ρ c) (ix2 a j))
  refine congrArg (max · 0) (congrArg₂ (· + ·) (congrArg₂ (· * ·) (table28 m ρ c r a) (scale5 m ρ c r 0)) (bias5 m ρ c 0 a))

/-- What the third dense stage finds: the aggregation of the second stage's table. -/
theorem table39 (n : Fin 100000) (j : Fin 64) :
    (W7 m ρ c (Proc.devRef .tc main_v39) : S100000x64.Idx → EReal) (ix2 n j)
      = Cert.Gcn.agg (Cert.ReferenceIdeal.ReadP.val_main_v6 (F := Ideal) (m ((c : Thread nD τ).loc main_arg1))) (Cert.ReferenceIdeal.ReadP.val_main_v7 (F := Ideal) (m ((c : Thread nD τ).loc main_arg1))) (Cert.Gcn.kerP1 (Cert.ReferenceIdeal.ReadP.val_main_v6 (F := Ideal) (m ((c : Thread nD τ).loc main_arg1))) (Cert.ReferenceIdeal.ReadP.val_main_v7 (F := Ideal) (m ((c : Thread nD τ).loc main_arg1))) (Cert.ReferenceIdeal.ReadP.val_main_v15 (F := Ideal) (m ((c : Thread nD τ).loc main_arg1))) (m ((c : Thread nD τ).loc main_arg0)) (m ((c : Thread nD τ).loc main_arg2))
          (m ((c : Thread nD τ).loc main_arg3)) (m ((c : Thread nD τ).loc main_arg4))) n j := by
  refine (agg_v39 (W6 m ρ c) n j).trans ?_
  rw [src6 m ρ c, dst6 m ρ c]
  exact congrArg (fun y => Cert.Gcn.agg (Cert.ReferenceIdeal.ReadP.val_main_v6 (F := Ideal) (m ((c : Thread nD τ).loc main_arg1))) (Cert.ReferenceIdeal.ReadP.val_main_v7 (F := Ideal) (m ((c : Thread nD τ).loc main_arg1))) y n j) (funext fun a => funext fun b => table29 m ρ c a b)

/-- THE RESULT at an entry. -/
theorem out_eq (n : Fin 100000) (j : Fin 64) :
    (W8 m ρ c (Proc.devRef .tc main_v40) : S100000x64.Idx → EReal) (ix2 n j)
      = Cert.Gcn.kerOut (Cert.ReferenceIdeal.ReadP.val_main_v6 (F := Ideal) (m ((c : Thread nD τ).loc main_arg1))) (Cert.ReferenceIdeal.ReadP.val_main_v7 (F := Ideal) (m ((c : Thread nD τ).loc main_arg1))) (Cert.ReferenceIdeal.ReadP.val_main_v15 (F := Ideal) (m ((c : Thread nD τ).loc main_arg1))) (m ((c : Thread nD τ).loc main_arg0)) (m ((c : Thread nD τ).loc main_arg2))
          (m ((c : Thread nD τ).loc main_arg3)) (m ((c : Thread nD τ).loc main_arg4)) (m ((c : Thread nD τ).loc main_arg5)) n j := by
  have h : W8 m ρ c (Proc.devRef .tc main_v40)
      = Cert.Gcn.stage2 (V7 m ρ c main_v39) (V7 m ρ c main_v15) (V7 m ρ c main_v17) :=
    (W8_arr m ρ c 3).trans (Cert.KernelIdeal.Regions.final2 (V7 m ρ) c)
  refine (congrFun h (ix2 n j)).trans ?_
  rw [Cert.Gcn.stage2_apply]
  unfold Cert.Gcn.kerOut
  exact congrArg₂ (· + ·) (congrArg₂ (· * ·) (table39 m ρ c n j) (scale7 m ρ c n 0)) (bias7 m ρ c 0 j)

end Cert.KernelIdeal.Chain

end
-- ==== Proof.lean ====
/-
  The kernel — a two-layer graph convolution whose three dense stages are Pallas kernels, with a gather and a
  scatter-add on the host between them — against its jnp reference, on the extended reals.

  Both programs build the same two edge lists (the given edges followed by one self-loop per node) and the same per-node
  scale `dinv = if deg > 0 then 1/√deg else 0` from the edge-index argument.  The reference scales every carried row, edge
  by edge, by `dinv(source) · dinv(target)`; the kernel scales the rows of each dense stage's table by `dinv` before the
  edges carry them and the summed rows by `dinv` again afterwards.  The two agree because `dinv` is a nonnegative real at
  every node whatever the degree is, and multiplication by a nonnegative real distributes over any finite sum of extended
  reals (Law.lean); no finiteness of the features or the weights is needed, so the precondition is never opened.

  * the frames of the two kernel programs are the generated frame certificates; the reference's frame is its run with the
    result dropped;
  * the idealization rewrote nothing, so there is nothing to preserve;
  * for the value claim both runs end with the result buffer at one array: the kernel's by its run read segment by segment
    (KRun.lean, KValue.lean), the reference's by its run read stage by stage (RefValue.lean), joined by the law.
-/
import proofs.«111790_j60129542735_2_alg».proof.Defs
import proofs.«111790_j60129542735_2_alg».proof.Proof.Gen.Kernel
import proofs.«111790_j60129542735_2_alg».proof.Proof.Gen.Kernel.Skeleton
import proofs.«111790_j60129542735_2_alg».proof.Proof.Gen.Kernel.Launch
import proofs.«111790_j60129542735_2_alg».proof.Proof.Gen.Kernel.Points
import proofs.«111790_j60129542735_2_alg».proof.Proof.Gen.Kernel.Frame
import proofs.«111790_j60129542735_2_alg».proof.Proof.Gen.KernelIdeal
import proofs.«111790_j60129542735_2_alg».proof.Proof.Gen.KernelIdeal.Skeleton
import proofs.«111790_j60129542735_2_alg».proof.Proof.Gen.KernelIdeal.Launch
import proofs.«111790_j60129542735_2_alg».proof.Proof.Gen.KernelIdeal.Points
import proofs.«111790_j60129542735_2_alg».proof.Proof.Gen.KernelIdeal.Frame
import proofs.«111790_j60129542735_2_alg».proof.Proof.Gen.ReferenceIdeal
import proofs.«111790_j60129542735_2_alg».proof.Proof.Gen.Pre_finite_inputs
import proofs.«111790_j60129542735_2_alg».proof.Proof.RefRun
import proofs.«111790_j60129542735_2_alg».proof.Proof.RefRead
import proofs.«111790_j60129542735_2_alg».proof.Proof.RefValue
import proofs.«111790_j60129542735_2_alg».proof.Proof.RefScale
import proofs.«111790_j60129542735_2_alg».proof.Proof.Law
import proofs.«111790_j60129542735_2_alg».proof.Proof.KRun
import proofs.«111790_j60129542735_2_alg».proof.Proof.KValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result buffer at the array the kernel's last segment boundary holds there: the kernel by its
    run; the reference because its result, entry by entry, is the edge-by-edge arrangement of the convolution, which is the
    row-by-row arrangement, which is what that boundary holds. -/
theorem algebraic : Cert.algebraic_KernelIdeal_ReferenceIdeal := by
  intro m ρ m' ρ' _ hagree
  refine ⟨fun c => Cert.KernelIdeal.Gen.W8 m ρ c (Proc.devRef .tc Cert.KernelIdeal.main_v40),
    Cert.KernelIdeal.RunValue.run_out (F := Ideal) m ρ, ?_⟩
  refine (θ_run Cert.ReferenceIdeal.defs _ _).mono (fun r h c => ⟨(h c).1.trans ?_, (h c).2⟩)
    (Cert.ReferenceIdeal.ValueP.run (F := Ideal) m' ρ')
  refine (Cert.ReferenceIdeal.ReadP.val_main_v90_eq m' c).trans ?_
  funext i
  obtain ⟨n, j, rfl⟩ : ∃ (n : Fin 100000) (j : Fin 64), i = ix2 n j := ⟨i 0, i 1, eq_ix2 i⟩
  refine (Cert.ReferenceIdeal.RefValue.ref_eq _ _ _ _ _ _ n j).trans ?_
  rw [(hagree c).1, (hagree c).2.1, (hagree c).2.2.1, (hagree c).2.2.2.1, (hagree c).2.2.2.2.1, (hagree c).2.2.2.2.2]
  refine (Cert.Gcn.refOut_eq_kerOut _ _ _ _ _ _ _ _ (fun r => Cert.ReferenceIdeal.RefScale.scale_ok _ r) n j).trans ?_
  exact (Cert.KernelIdeal.Chain.out_eq m ρ c n j).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
